-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  reducesTo_S8x2048x2048_S8x2048_d2 : S8x2048x2048.ReducesTo [2] S8x2048
  reducesTo_S8x2048_S_d0_1 : S8x2048.ReducesTo [0, 1] S_

variable [Facts]

def fn_part1 {F : FTy → Type} [FloatOps F] (main_v13 : IVec S_ 1) (main_v15 : IVec S_ 1) : IVec S_ 1 :=
  let main_v16 : IVec S_ 1 := andi main_v13 main_v15
  main_v16

def fn {F : FTy → Type} [FloatOps F] (main_arg0 : FVec F S8x2048x64 .f32) (main_arg1 : FVec F S8x2048x64 .f32) (main_arg2 : FVec F S8x2048x64 .f32) (main_arg3 : IVec S8x2048x2048 1) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x2048x64 .f32 := Host.absf main_arg2
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  let main_c_3 : IVec S_ 1 := constantI S_ 1 1#1
  let main_v12 : IVec S_ 1 := (fun x v => Host.reduce IntOp.andi x v reducesTo_S8x2048x64_S_d0_1_2 h_S_) main_v11 main_c_3
  let main_v13 : IVec S_ 1 := andi main_v8 main_v12
  let main_c_4 : IVec S_ 1 := constantI S_ 1 0#1
  let main_v14 : IVec S8x2048 1 := (fun x v => Host.reduce IntOp.ori x v reducesTo_S8x2048x2048_S8x2048_d2 h_S_) main_arg3 main_c_4
  let main_c_5 : IVec S_ 1 := constantI S_ 1 1#1
  let main_v15 : IVec S_ 1 := (fun x v => Host.reduce IntOp.andi x v reducesTo_S8x2048_S_d0_1 h_S_) main_v14 main_c_5
  fn_part1 (F := F) main_v13 main_v15
-- ==== Kernel.lean ====
abbrev S8x2048x64 : Shape := ⟨3, ![8, 2048, 64]⟩
abbrev S8x2048x2048 : Shape := ⟨3, ![8, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S2048x64 : Shape := ⟨2, ![2048, 64]⟩
abbrev S2048 : Shape := ⟨1, ![2048]⟩
abbrev S2048x1 : Shape := ⟨2, ![2048, 1]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048x2048, .i1⟩
  | .hbm, ⟨4, _⟩ => ⟨S8x2048x2048, .i32⟩
  | .hbm, ⟨5, _⟩ => ⟨S8x2048x64, .f32⟩
  | .hbm, ⟨6, _⟩ => ⟨S8x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x2048, .i32⟩
  | .local _ .vmem, ⟨7, _⟩ => ⟨S1x512x2048, .i32⟩
  | .local _ .vmem, ⟨8, _⟩ => ⟨S1x512x64, .f32⟩
  | .local _ .vmem, ⟨9, _⟩ => ⟨S1x512x64, .f32⟩
  | .local _ .vmem, ⟨10, _⟩ => ⟨S1x512x2048, .f32⟩
  | .local _ .vmem, ⟨11, _⟩ => ⟨S1x512x2048, .f32⟩
  | .local _ .vmem, ⟨12, _⟩ => ⟨S2048x64, .bf16⟩
  | .local _ .vmem, ⟨13, _⟩ => ⟨S2048x64, .bf16⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  natLt_1_32 : 1 < 32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S2048x64_S2048 : S2048x64.Reduces [1] S2048
  shapeCasts_S2048_S2048x1 : S2048.ShapeCasts S2048x1
  broadcasts_S2048x1_S2048x64 : S2048x1.Broadcasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x64_S512 : S512x64.Reduces [1] S512
  shapeCasts_S512_S512x1 : S512.ShapeCasts S512x1
  broadcasts_S512x1_S512x64 : S512x1.Broadcasts S512x64
  transposes_S2048x64_p1_0_S64x2048 : S2048x64.Transposes [1, 0] S64x2048
  reduces_S512x2048_S512 : S512x2048.Reduces [1] S512
  broadcasts_S512x1_S512x2048 : S512x1.Broadcasts S512x2048
  shapeCasts_S512x2048_S1x512x2048 : S512x2048.ShapeCasts S1x512x2048
  shapeCasts_S512x64_S1x512x64 : S512x64.ShapeCasts S1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S8x2048x64.size a
  hwx0_0 : ∀ i : grid0.Coords, EltTy.bits .f32 = 32 ∨ (Rect.block (s := S8x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .f32 = 32 ∨ (Rect.block (s := S8x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S8x2048x2048.size a
  hwx0_3 : ∀ i : grid0.Coords, EltTy.bits .i32 = 32 ∨ (Rect.block (s := S8x2048x2048) S1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x64.size a ≤ S8x2048x64.size a
  hwx0_4 : ∀ i : grid0.Coords, EltTy.bits .f32 = 32 ∨ (Rect.block (s := S8x2048x64) S1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x2048x2048.size a
  hwx0_5 : ∀ i : grid0.Coords, EltTy.bits .f32 = 32 ∨ (Rect.block (s := S8x2048x2048) S1x512x2048.size (cc0_transform_5 i) (hinb0_5 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048x2048, .i1⟩
  | .hbm, ⟨4, _⟩ => ⟨S8x2048x64, .f32⟩
  | .hbm, ⟨5, _⟩ => ⟨S_, .f32⟩
  | .hbm, ⟨6, _⟩ => ⟨S8x2048, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x64, .f32⟩
  | .hbm, ⟨13, _⟩ => ⟨S8x2048x64, .f32⟩
  | .hbm, ⟨14, _⟩ => ⟨S8x2048x64, .f32⟩
  | .hbm, ⟨15, _⟩ => ⟨S_, .f32⟩
  | .hbm, ⟨16, _⟩ => ⟨S8x2048, .f32⟩
  | .hbm, ⟨17, _⟩ => ⟨S8x2048x1, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S8x2048x64, .f32⟩
  | .hbm, ⟨23, _⟩ => ⟨S8x2048x64, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S_, .f32⟩
  | .hbm, ⟨30, _⟩ => ⟨S8x2048x2048, .f32⟩
  | .hbm, ⟨31, _⟩ => ⟨S8x2048x2048, .f32⟩
  | .hbm, ⟨32, _⟩ => ⟨S_, .f32⟩
  | .hbm, ⟨33, _⟩ => ⟨S8x2048, .f32⟩
  | .hbm, ⟨34, _⟩ => ⟨S_, .f32⟩
  | .hbm, ⟨35, _⟩ => ⟨S8x2048, .f32⟩
  | .hbm, ⟨36, _⟩ => ⟨S8x2048, .f32⟩
  | .hbm, ⟨37, _⟩ => ⟨S8x2048x1, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048, .f32⟩
  | .hbm, ⟨43, _⟩ => ⟨S8x2048x1, .f32⟩
  | .hbm, ⟨44, _⟩ => ⟨S8x2048x2048, .f32⟩
  | .hbm, ⟨45, _⟩ => ⟨S8x2048x2048, .f32⟩
  | .hbm, ⟨46, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call2_v0 : Ref sig .tc := ⟨.hbm, 29, rfl⟩
abbrev main_call2_v1 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]

class Facts₀ : Prop where
  reducesTo_S8x2048x64_S8x2048_d2 : S8x2048x64.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  bcast_S8x2048x1_S8x2048x64_0_1_2 : S8x2048x1.BroadcastsInDim S8x2048x64 (![0, 1, 2] : Fin 3 → Fin S8x2048x64.rank)
  bcast_S_S8x2048x2048 : S_.BroadcastsInDim S8x2048x2048 (![] : Fin 0 → Fin S8x2048x2048.rank)
  reducesTo_S8x2048x2048_S8x2048_d2 : S8x2048x2048.ReducesTo [2] S8x2048
  bcast_S_S8x2048 : S_.BroadcastsInDim S8x2048 (![] : Fin 0 → Fin S8x2048.rank)
  bcast_S8x2048x1_S8x2048x2048_0_1_2 : S8x2048x1.BroadcastsInDim S8x2048x2048 (![0, 1, 2] : Fin 3 → Fin S8x2048x2048.rank)
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.AttnSpec.lean ====
/-
  Masked cosine attention over the extended reals, as functions of the argument arrays.
  For a batch n, a query row l and a key row s, with x̂ = x / max(√(Σ_d x_d²), ε) the direction of a row x:
    e(s) = (Σ_d q̂(n,l)_d · k̂(n,s)_d) / 8   where the mask holds, −∞ elsewhere,
    w(s) = exp(e(s) − max_s e) / Σ_s exp(e(s) − max_s e),
    o(d) = Σ_s w(s) · v(n,s,d).
  Two arrangements of the same numbers are named: the one above, and the one in which the factor 1/8 is applied to
  each q̂_d before the sum over d and the division by the total is a multiplication by its reciprocal.
-/
import Idealize.ShloMosaic.PureOps.Ideal
import Idealize.ShloMosaic.Lib.ValueIdx

noncomputable section

namespace Cert.AttnSpec

open Idealize.ShloMosaic Idealize.ShloMosaic.ValueIdx

/-- The floor ε under a row's length, the scale 1/8 and its reciprocal 8, and 1, each as the f32 word denotes it. -/
def eps : EReal := Ideal.ofBits .f32 0x2B8CBCCC#32
def eighth : EReal := Ideal.ofBits .f32 0x3E000000#32
def eight : EReal := Ideal.ofBits .f32 0x41000000#32
def one : EReal := Ideal.ofBits .f32 0x3F800000#32

/-! ## One row of 64 entries -/

/-- The Euclidean length of a row, floored at ε. -/
def rowLen (x : Fin 64 → EReal) : EReal := max (Ideal.sqrt (∑ d : Fin 64, x d * x d)) eps

/-- The row divided by its floored length. -/
def rowDir (x : Fin 64 → EReal) (d : Fin 64) : EReal := Ideal.div (x d) (rowLen x)

/-! ## One row of 2048 logits -/

/-- The largest logit of a row (−∞ for a row of −∞). -/
def rowTop (e : Fin 2048 → EReal) : EReal := (Finset.univ : Finset (Fin 2048)).fold max ⊥ e

/-- exp of a logit's distance below the row's largest. -/
def rowMass (e : Fin 2048 → EReal) (s : Fin 2048) : EReal := Ideal.exp (e s - rowTop e)

/-- The sum of a row's masses. -/
def rowTotal (e : Fin 2048 → EReal) : EReal := ∑ s : Fin 2048, rowMass e s

/-- A mass as a share of the total: the quotient. -/
def rowWeight (e : Fin 2048 → EReal) (s : Fin 2048) : EReal := Ideal.div (rowMass e s) (rowTotal e)

/-- The same share spelt as the mass times the reciprocal of the total. -/
def rowWeightK (e : Fin 2048 → EReal) (s : Fin 2048) : EReal := rowMass e s * Ideal.div one (rowTotal e)

/-! ## The arrays -/

abbrev Arr : Type := (⟨3, ![8, 2048, 64]⟩ : Shape).Idx → EReal
abbrev Sq : Type := (⟨3, ![8, 2048, 2048]⟩ : Shape).Idx → EReal
abbrev Msk : Type := (⟨3, ![8, 2048, 2048]⟩ : Shape).Idx → BitVec 1

/-- Row r of batch n. -/
def row (X : Arr) (n : Fin 8) (r : Fin 2048) : Fin 64 → EReal := fun d => X (ix3 n r d)

/-- The logits of query row l of batch n: the cosine of the two rows over 8 where the mask holds, −∞ elsewhere. -/
def logit (Q K : Arr) (M : Msk) (n : Fin 8) (l : Fin 2048) : Fin 2048 → EReal := fun s =>
  if M (ix3 n l s) = 1#1 then Ideal.div (∑ d : Fin 64, rowDir (row Q n l) d * rowDir (row K n s) d) eight else ⊥

/-- The same logits with the factor 1/8 applied to each entry of the query's direction before the sum. -/
def logitK (Q K : Arr) (M : Msk) (n : Fin 8) (l : Fin 2048) : Fin 2048 → EReal := fun s =>
  if M (ix3 n l s) = 1#1 then ∑ d : Fin 64, (rowDir (row Q n l) d * eighth) * rowDir (row K n s) d else ⊥

/-- The attention weights, as quotients. -/
def weights (Q K : Arr) (M : Msk) : Sq := fun i => rowWeight (logit Q K M (i 0) (i 1)) (i 2)

/-- The attention output: each weight times the value row, summed over the keys. -/
def outputs (Q K V : Arr) (M : Msk) : Arr := fun i =>
  ∑ s : Fin 2048, rowWeight (logit Q K M (i 0) (i 1)) s * V (ix3 (i 0) s (i 2))

/-- The weights in the second arrangement. -/
def weightsK (Q K : Arr) (M : Msk) : Sq := fun i => rowWeightK (logitK Q K M (i 0) (i 1)) (i 2)

/-- The output in the second arrangement. -/
def outputsK (Q K V : Arr) (M : Msk) : Arr := fun i =>
  ∑ s : Fin 2048, rowWeightK (logitK Q K M (i 0) (i 1)) s * V (ix3 (i 0) s (i 2))

end Cert.AttnSpec

end
-- ==== Proof.AttnConsts.lean ====
/-
  The four float words of the specification as the extended reals they denote: the scale 1/8, its reciprocal 8,
  the unit 1, and the floor ε = (1 + 834764/2²³) · 2⁻⁴⁰ under a row's length, a positive real.
-/
import proofs.«100238_j82712480186623_2_alg».proof.Proof.AttnSpec

noncomputable section

namespace Cert.AttnSpec

open Idealize.ShloMosaic

theorem eighth_eq : eighth = ((1 / 8 : ℝ) : EReal) := by
  unfold eighth
  simp [Ideal.ofBits, Ideal.ieee, -EReal.coe_mul]; norm_num

theorem eight_eq : eight = ((8 : ℝ) : EReal) := by
  unfold eight
  simp [Ideal.ofBits, Ideal.ieee, -EReal.coe_mul]; norm_num

theorem one_eq : one = 1 := by
  unfold one
  simp [Ideal.ofBits, Ideal.ieee, -EReal.coe_mul]; norm_num

/-- ε is a positive real. -/
theorem eps_pos : ∃ e : ℝ, 0 < e ∧ eps = (e : EReal) := by
  refine ⟨(1 + 834764 / 8388608) * 2⁻¹ ^ 40, by positivity, ?_⟩
  unfold eps
  simp [Ideal.ofBits, Ideal.ieee, -EReal.coe_mul]; norm_num

end Cert.AttnSpec

end
-- ==== Proof.AttnAlgebra.lean ====
/-
  The two arrangements of masked cosine attention give the same numbers when the query and key entries are real
  and every mask row has an unmasked key.
  * A row of reals has a positive real floored length, so its direction is a row of reals; then the factor 1/8
    may be applied to each entry before the sum over the 64 coordinates or to the sum itself (real arithmetic).
  * A mass times the reciprocal of the total is the quotient by the total as soon as the total is not zero;
    and the total is not zero because an unmasked key's logit is real, the largest logit is then real, that
    key's mass is exp of a real, positive, and no mass is negative.
-/
import proofs.«100238_j82712480186623_2_alg».proof.Proof.AttnConsts

noncomputable section

namespace Cert.AttnSpec

open Idealize.ShloMosaic Idealize.ShloMosaic.ValueIdx

/-! ## Finite sums of reals inside the extended reals -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-! ## A row of reals -/

/-- The floored length of a row of reals is a positive real. -/
theorem rowLen_real (a : Fin 64 → ℝ) :
    ∃ L : ℝ, 0 < L ∧ rowLen (fun d => (a d : EReal)) = (L : EReal) := by
  obtain ⟨e, he, hε⟩ := eps_pos
  refine ⟨max (Real.sqrt (∑ d : Fin 64, a d * a d)) e, lt_max_of_lt_right he, ?_⟩
  unfold rowLen
  have h1 : (∑ d : Fin 64, (a d : EReal) * (a d : EReal)) = ((∑ d : Fin 64, a d * a d : ℝ) : EReal) := by
    rw [coe_sum]; exact Finset.sum_congr rfl fun d _ => (EReal.coe_mul _ _).symm
  rw [h1, hε, Ideal.sqrt_coe,
    if_neg (not_lt.mpr (Finset.sum_nonneg fun d _ => mul_self_nonneg (a d))), coe_max]

/-- The direction of a row of reals is a row of reals. -/
theorem rowDir_real (a : Fin 64 → ℝ) :
    ∃ u : Fin 64 → ℝ, ∀ d, rowDir (fun d => (a d : EReal)) d = (u d : EReal) := by
  obtain ⟨L, hL, hlen⟩ := rowLen_real a
  refine ⟨fun d => a d * (1 / L), fun d => ?_⟩
  unfold rowDir
  rw [hlen, Ideal.div_coe hL.ne', ← EReal.coe_mul]

/-- For rows of reals the factor 1/8 may be applied to each entry of the first row before the sum of products, or
    the sum of products may be divided by 8. -/
theorem scaled_sum (u w : Fin 64 → ℝ) :
    (∑ d : Fin 64, ((u d : EReal) * eighth) * (w d : EReal))
      = Ideal.div (∑ d : Fin 64, (u d : EReal) * (w d : EReal)) eight := by
  have hl : (∑ d : Fin 64, ((u d : EReal) * eighth) * (w d : EReal))
      = ((∑ d : Fin 64, (u d * (1 / 8)) * w d : ℝ) : EReal) := by
    rw [coe_sum, eighth_eq]
    exact Finset.sum_congr rfl fun d _ => by rw [EReal.coe_mul, EReal.coe_mul]
  have hr : (∑ d : Fin 64, (u d : EReal) * (w d : EReal)) = ((∑ d : Fin 64, u d * w d : ℝ) : EReal) := by
    rw [coe_sum]; exact Finset.sum_congr rfl fun d _ => (EReal.coe_mul _ _).symm
  rw [hl, hr, eight_eq, Ideal.div_coe (by norm_num : (8 : ℝ) ≠ 0), ← EReal.coe_mul, Finset.sum_mul]
  exact congrArg _ (Finset.sum_congr rfl fun d _ => by ring)

/-! ## A row of logits -/

/-- No mass is negative. -/
theorem exp_nonneg (x : EReal) : 0 ≤ Ideal.exp x := by
  induction x using EReal.rec with
  | bot => simp
  | coe r => rw [Ideal.exp_coe]; exact EReal.coe_nonneg.mpr (Real.exp_pos r).le
  | top => simp

/-- A mass times the reciprocal of the total is the quotient by the total, when the total is not zero. -/
theorem rowWeightK_eq (e : Fin 2048 → EReal) (s : Fin 2048) (h : rowTotal e ≠ 0) :
    rowWeightK e s = rowWeight e s := by
  unfold rowWeightK rowWeight
  simp only [Ideal.div, if_neg h, one_eq, one_mul]

/-- A row of logits none of which is +∞ and one of which is real has a nonzero total: its largest logit is real,
    the real logit's mass is exp of a real, and the total is at least that mass. -/
theorem rowTotal_ne_zero (e : Fin 2048 → EReal) (hne : ∀ s, e s ≠ ⊤) (s0 : Fin 2048) (r0 : ℝ)
    (h0 : e s0 = (r0 : EReal)) : rowTotal e ≠ 0 := by
  have hlt : rowTop e < ⊤ := by
    unfold rowTop
    rw [Finset.fold_max_lt]
    exact ⟨bot_lt_top, fun s _ => lt_top_iff_ne_top.mpr (hne s)⟩
  have hge : (r0 : EReal) ≤ rowTop e := by
    unfold rowTop
    rw [Finset.le_fold_max]
    exact Or.inr ⟨s0, Finset.mem_univ _, h0 ▸ le_rfl⟩
  have hb : rowTop e ≠ ⊥ := fun hbot => by
    rw [hbot] at hge; exact EReal.coe_ne_bot r0 (le_bot_iff.mp hge)
  obtain ⟨T, hT⟩ : ∃ T : ℝ, rowTop e = (T : EReal) := ⟨(rowTop e).toReal, (EReal.coe_toReal hlt.ne hb).symm⟩
  have hpos : 0 < rowMass e s0 := by
    unfold rowMass
    rw [h0, hT, ← EReal.coe_sub, Ideal.exp_coe]
    exact EReal.coe_pos.mpr (Real.exp_pos _)
  have hle : rowMass e s0 ≤ rowTotal e := by
    unfold rowTotal
    exact Finset.single_le_sum (fun s _ => by unfold rowMass; exact exp_nonneg _) (Finset.mem_univ s0)
  exact (lt_of_lt_of_le hpos hle).ne'

/-! ## The arrays -/

/-- A row of an array of reals has a real direction. -/
theorem row_real (X : Arr) (hX : ∀ i, ∃ r : ℝ, X i = (r : EReal)) (n : Fin 8) (r : Fin 2048) :
    ∃ u : Fin 64 → ℝ, ∀ d, rowDir (row X n r) d = (u d : EReal) := by
  choose x hx using hX
  have h : row X n r = fun d => ((x (ix3 n r d) : ℝ) : EReal) := funext fun d => hx _
  rw [h]
  exact rowDir_real _

/-- An unmasked logit in either arrangement is one real number. -/
theorem logit_entry (Q K : Arr) (hQ : ∀ i, ∃ r : ℝ, Q i = (r : EReal)) (hK : ∀ i, ∃ r : ℝ, K i = (r : EReal))
    (n : Fin 8) (l s : Fin 2048) :
    ∃ r : ℝ, (∑ d : Fin 64, (rowDir (row Q n l) d * eighth) * rowDir (row K n s) d) = (r : EReal)
      ∧ Ideal.div (∑ d : Fin 64, rowDir (row Q n l) d * rowDir (row K n s) d) eight = (r : EReal) := by
  obtain ⟨u, hu⟩ := row_real Q hQ n l
  obtain ⟨w, hw⟩ := row_real K hK n s
  have e1 : (∑ d : Fin 64, (rowDir (row Q n l) d * eighth) * rowDir (row K n s) d)
      = ∑ d : Fin 64, ((u d : EReal) * eighth) * (w d : EReal) :=
    Finset.sum_congr rfl fun d _ => by rw [hu, hw]
  have e2 : (∑ d : Fin 64, rowDir (row Q n l) d * rowDir (row K n s) d)
      = ∑ d : Fin 64, (u d : EReal) * (w d : EReal) :=
    Finset.sum_congr rfl fun d _ => by rw [hu, hw]
  have h2 : Ideal.div (∑ d : Fin 64, (u d : EReal) * (w d : EReal)) eight
      = (((∑ d : Fin 64, u d * w d) * (1 / 8) : ℝ) : EReal) := by
    have hr : (∑ d : Fin 64, (u d : EReal) * (w d : EReal)) = ((∑ d : Fin 64, u d * w d : ℝ) : EReal) := by
      rw [coe_sum]; exact Finset.sum_congr rfl fun d _ => (EReal.coe_mul _ _).symm
    rw [hr, eight_eq, Ideal.div_coe (by norm_num : (8 : ℝ) ≠ 0), ← EReal.coe_mul]
  exact ⟨_, by rw [e1, scaled_sum, h2], by rw [e2, h2]⟩

variable (Q K : Arr) (M : Msk) (hQ : ∀ i, ∃ r : ℝ, Q i = (r : EReal)) (hK : ∀ i, ∃ r : ℝ, K i = (r : EReal))
include hQ hK

/-- The two arrangements of the logits agree. -/
theorem logitK_eq (n : Fin 8) (l : Fin 2048) : logitK Q K M n l = logit Q K M n l := by
  funext s
  unfold logitK logit
  split
  · obtain ⟨r, h1, h2⟩ := logit_entry Q K hQ hK n l s
    rw [h1, h2]
  · rfl

/-- No logit is +∞. -/
theorem logit_ne_top (n : Fin 8) (l s : Fin 2048) : logit Q K M n l s ≠ ⊤ := by
  unfold logit
  split
  · obtain ⟨r, _, h2⟩ := logit_entry Q K hQ hK n l s
    rw [h2]; exact EReal.coe_ne_top r
  · exact bot_ne_top

/-- An unmasked logit is real. -/
theorem logit_real (n : Fin 8) (l s : Fin 2048) (h : M (ix3 n l s) = 1#1) :
    ∃ r : ℝ, logit Q K M n l s = (r : EReal) := by
  obtain ⟨r, _, h2⟩ := logit_entry Q K hQ hK n l s
  exact ⟨r, by unfold logit; rw [if_pos h, h2]⟩

variable (hM : ∀ (n : Fin 8) (l : Fin 2048), ∃ s : Fin 2048, M (ix3 n l s) = 1#1)
include hM

/-- Every row's total is nonzero. -/
theorem total_ne_zero (n : Fin 8) (l : Fin 2048) : rowTotal (logit Q K M n l) ≠ 0 := by
  obtain ⟨s0, hs0⟩ := hM n l
  obtain ⟨r0, hr0⟩ := logit_real Q K M hQ hK n l s0 hs0
  exact rowTotal_ne_zero _ (fun s => logit_ne_top Q K M hQ hK n l s) s0 r0 hr0

/-- THE WEIGHTS: the two arrangements agree, for real queries and keys and a mask with an unmasked key in every row. -/
theorem weightsK_eq : weightsK Q K M = weights Q K M := by
  funext i
  obtain ⟨n, l, s, rfl⟩ : ∃ (n : Fin 8) (l s : Fin 2048), i = ix3 n l s := ⟨i 0, i 1, i 2, eq_ix3 i⟩
  show rowWeightK (logitK Q K M n l) s = rowWeight (logit Q K M n l) s
  rw [logitK_eq Q K M hQ hK]
  exact rowWeightK_eq _ _ (total_ne_zero Q K M hQ hK hM n l)

/-- THE OUTPUT: likewise, whatever the values are. -/
theorem outputsK_eq (V : Arr) : outputsK Q K V M = outputs Q K V M := by
  funext i
  obtain ⟨n, l, d, rfl⟩ : ∃ (n : Fin 8) (l : Fin 2048) (d : Fin 64), i = ix3 n l d := ⟨i 0, i 1, i 2, eq_ix3 i⟩
  show (∑ s : Fin 2048, rowWeightK (logitK Q K M n l) s * V (ix3 n s d))
    = ∑ s : Fin 2048, rowWeight (logit Q K M n l) s * V (ix3 n s d)
  rw [logitK_eq Q K M hQ hK]
  exact Finset.sum_congr rfl fun s _ => by rw [rowWeightK_eq _ _ (total_ne_zero Q K M hQ hK hM n l)]

end Cert.AttnSpec

end
-- ==== Proof.PreDecode.lean ====
/-
  What the precondition says of the argument arrays.
  It is the conjunction of four tests: |x| < +∞ at every entry of the queries, of the keys and of the values, and,
  for the mask, that every row (n, l) has a key s at which it holds. Read back:
  an extended real whose absolute value lies below +∞ is a real number; a conjunction over all entries that holds
  holds at each entry; and a disjunction along a row that holds, started from "false", holds at some key of that row.
-/
import proofs.«100238_j82712480186623_2_alg».proof.Pre_finite_inputs
import Idealize.ShloMosaic.Lib.ReduceAll
import Idealize.ShloMosaic.Lib.ValueIdx
import Idealize.ShloMosaic.PureOps.Ideal

noncomputable section

namespace Cert.PreDecode

open Idealize.ShloMosaic Idealize.ShloMosaic.ValueIdx Cert.Pre_finite_inputs

/-- The rank-0 shape has one index. -/
instance : Subsingleton S_.Idx := ⟨fun a b => funext fun d => d.elim0⟩

/-- An extended real whose absolute value max x (−x) is below the word that denotes +∞ is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => exact absurd h (by simp [Ideal.cmp])
  | coe r => exact ⟨r, rfl⟩
  | top => exact absurd h (by simp [Ideal.cmp])

variable [Facts]
open Facts

/-- A disjunction along row (n, l) of the mask that holds, started from "false", holds at some key of the row. -/
theorem exists_of_row_or (M : IVec S8x2048x2048 1) (n : Fin 8) (l : Fin 2048)
    (h : Host.reduce IntOp.ori M (constantI S_ 1 0#1) reducesTo_S8x2048x2048_S8x2048_d2 h_S_ (ix2 n l) = 1#1) :
    ∃ s : Fin 2048, M (ix3 n l s) = 1#1 := by
  have hr : S8x2048x2048.Reduces [2] S8x2048 := by decide
  rw [Host.reduce_eq_fold_single IntOp.ori M _ reducesTo_S8x2048x2048_S8x2048_d2 hr h_S_ (ix2 n l)] at h
  rcases (Finset.fold_op_rel_iff_or (r := fun _ y : BitVec 1 => y = 1#1)
      (fun {x y z} => IntOp.ori_eq_one) (c := 0#1)).1 h with h0 | ⟨k, _, hk⟩
  · exact absurd (show (0#1 : BitVec 1) = 1#1 from h0) (by decide)
  · refine ⟨k, ?_⟩
    have e : hr.lift (ix2 n l) k = ix3 n l k :=
      funext fun a => Fin.ext (by match a with | ⟨0, _⟩ => rfl | ⟨1, _⟩ => rfl | ⟨2, _⟩ => rfl)
    exact (congrArg M e).symm.trans hk

/-- THE PRECONDITION READ BACK: the queries and the keys are arrays of reals, and every mask row has a key at which the
    mask holds. (The values' finiteness is part of the precondition too; nothing below uses it.) -/
theorem decode (Q K V : FVec Ideal S8x2048x64 .f32) (M : IVec S8x2048x2048 1)
    (h : fn (F := Ideal) Q K V M = fun _ => 1#1) :
    (∀ i, ∃ r : ℝ, Q i = (r : EReal)) ∧ (∀ i, ∃ r : ℝ, K i = (r : EReal))
      ∧ (∀ (n : Fin 8) (l : Fin 2048), ∃ s : Fin 2048, M (ix3 n l s) = 1#1) := by
  have h0 := congrFun h ValueIdx.ix0
  dsimp only [fn, fn_part1] at h0
  have a1 := IntOp.andi_eq_one.1 h0
  have a2 := IntOp.andi_eq_one.1 a1.1
  have a3 := IntOp.andi_eq_one.1 a2.1
  refine ⟨fun i => real_of_abs_lt (Q i) (Host.reduce_andi_all _ _ _ _ _ a3.1 i),
    fun i => real_of_abs_lt (K i) (Host.reduce_andi_all _ _ _ _ _ a3.2 i),
    fun n l => exists_of_row_or M n l (Host.reduce_andi_all _ _ _ _ _ a1.2 (ix2 n l))⟩

end Cert.PreDecode

end
-- ==== Proof.RefValue.lean ====
/-
  The reference computation, read one operation at a time at the ideal values, is the specification of masked cosine
  attention.

  Each array of the reference is read at an index (n, l, s) or (n, r, d) by its coordinates:
    * a query or key row divided by its length floored at ε is the row's direction (the sum of squares starts from the
      zero word, which denotes 0, so the initial value drops out of the sum);
    * the contraction of two directions over d, divided by 8, kept where the mask holds and replaced by the word of −∞
      elsewhere, is the logit; that word denotes ⊥;
    * the reduction over the keys with a maximum body is the fold of max from ⊥ over the row's logits, and the further
      maximum with ⊥ changes nothing (max ⊥ x = x);
    * exp of the logit minus that maximum is the mass, the sum of the masses over the keys (again from the zero word) the
      total, the quotient the weight; the last contraction over the keys against the value rows is the output.
  No finiteness and no property of the mask is used: both sides are the same operations in the same order.
-/
import proofs.«100238_j82712480186623_2_alg».proof.Proof.Gen.ReferenceIdeal.Read
import proofs.«100238_j82712480186623_2_alg».proof.Proof.AttnSpec
import Idealize.ShloMosaic.Lib.ValueIdx
import Idealize.ShloMosaic.PureOps.Ideal.Laws
import Idealize.ShloMosaic.PureOps.Reduce

noncomputable section

namespace Cert.RefValue

open Idealize.ShloMosaic Idealize.ShloMosaic.ValueIdx Cert.ReferenceIdeal Cert.ReferenceIdeal.Read

/-! ## The direction of a row -/

/-- The query array divided, row by row, by the row's floored length. -/
theorem dir_q (Q : Cert.AttnSpec.Arr) (n : Fin 8) (r : Fin 2048) (d : Fin 64) :
    val_main_v4 (F := Ideal) Q (ix3 n r d) = Cert.AttnSpec.rowDir (Cert.AttnSpec.row Q n r) d := by
  have e : ∀ k : Fin 64, idx_main_call0_v1 (idx_main_call0_v2 (idx_main_v3 (ix3 n r d))) k = ix3 n r k := fun k =>
    funext fun a => Fin.ext (by match a with | ⟨0, _⟩ => rfl | ⟨1, _⟩ => rfl | ⟨2, _⟩ => rfl)
  rw [val_main_v4_apply, val_main_v3_apply, val_main_v2_apply, val_main_v0_apply, val_main_call0_v2_apply,
    val_main_call0_v1_apply, val_main_v1_apply, val_main_cst_apply, val_main_call0_cst_apply]
  simp only [e, val_main_call0_v0_apply, Ideal.hostDivf_def, Ideal.maximumf_def, Ideal.hostUnary_sqrt_def, Ideal.mulf_def,
    Ideal.ofBits_def, Ideal.ofBits_zero_f32, zero_add]
  unfold Cert.AttnSpec.rowDir Cert.AttnSpec.rowLen Cert.AttnSpec.row Cert.AttnSpec.eps
  rfl

/-- The key array likewise. -/
theorem dir_k (K : Cert.AttnSpec.Arr) (n : Fin 8) (r : Fin 2048) (d : Fin 64) :
    val_main_v9 (F := Ideal) K (ix3 n r d) = Cert.AttnSpec.rowDir (Cert.AttnSpec.row K n r) d := by
  have e : ∀ k : Fin 64, idx_main_call1_v1 (idx_main_call1_v2 (idx_main_v8 (ix3 n r d))) k = ix3 n r k := fun k =>
    funext fun a => Fin.ext (by match a with | ⟨0, _⟩ => rfl | ⟨1, _⟩ => rfl | ⟨2, _⟩ => rfl)
  rw [val_main_v9_apply, val_main_v8_apply, val_main_v7_apply, val_main_v5_apply, val_main_call1_v2_apply,
    val_main_call1_v1_apply, val_main_v6_apply, val_main_cst_0_apply, val_main_call1_cst_apply]
  simp only [e, val_main_call1_v0_apply, Ideal.hostDivf_def, Ideal.maximumf_def, Ideal.hostUnary_sqrt_def, Ideal.mulf_def,
    Ideal.ofBits_def, Ideal.ofBits_zero_f32, zero_add]
  unfold Cert.AttnSpec.rowDir Cert.AttnSpec.rowLen Cert.AttnSpec.row Cert.AttnSpec.eps
  rfl

/-! ## The logits -/

/-- The f32 word of −∞ denotes the least extended real. -/
theorem negInf_word : Ideal.ofBits .f32 0xFF800000#32 = (⊥ : EReal) := by
  simp [Ideal.ofBits, Ideal.ieee]

/-- The masked, scaled cosine of query row l and key row s. -/
theorem logit_at (Q K : Cert.AttnSpec.Arr) (M : Cert.AttnSpec.Msk) (n : Fin 8) (l s : Fin 2048) :
    val_main_v13 (F := Ideal) Q K M (ix3 n l s) = Cert.AttnSpec.logit Q K M n l s := by
  have el : ∀ k : Fin 64, lidx_main_v10 (ix3 n l s) k = ix3 n l k := fun k =>
    funext fun a => Fin.ext (by match a with | ⟨0, _⟩ => rfl | ⟨1, _⟩ => rfl | ⟨2, _⟩ => rfl)
  have er : ∀ k : Fin 64, ridx_main_v10 (ix3 n l s) k = ix3 n s k := fun k =>
    funext fun a => Fin.ext (by match a with | ⟨0, _⟩ => rfl | ⟨1, _⟩ => rfl | ⟨2, _⟩ => rfl)
  rw [val_main_v13_apply, val_main_v12_apply, val_main_v10_apply, val_main_v11_apply, val_main_cst_1_apply,
    val_main_call2_v1_apply, val_main_call2_v0_apply, val_main_cst_2_apply]
  simp only [el, er, dir_q, dir_k, Ideal.hostDivf_def, Ideal.ofBits_def, negInf_word]
  unfold Cert.AttnSpec.logit Cert.AttnSpec.eight Scalar.select
  rfl

/-! ## The largest logit of a row -/

/-- A pair (n, l) with the key coordinate k put back is (n, l, k). -/
theorem lift_key (h : S8x2048x2048.Reduces [2] S8x2048) (n : Fin 8) (l : Fin 2048) (k : Fin (S8x2048x2048.size 2)) :
    h.lift (ix2 n l) k = ix3 n l (⟨k.val, k.isLt⟩ : Fin 2048) :=
  funext fun a => Fin.ext (by match a with | ⟨0, _⟩ => rfl | ⟨1, _⟩ => rfl | ⟨2, _⟩ => rfl)

/-- The reduction with a maximum body over the keys is the fold of max, from −∞, over the row's logits. -/
theorem fold_at (Q K : Cert.AttnSpec.Arr) (M : Cert.AttnSpec.Msk) (n : Fin 8) (l : Fin 2048) :
    val_main_v14 (F := Ideal) Q K M (ix2 n l) = Cert.AttnSpec.rowTop (Cert.AttnSpec.logit Q K M n l) := by
  have h : S8x2048x2048.Reduces [2] S8x2048 := by decide
  have hf : (val_main_v13 (F := Ideal) Q K M ∘ h.lift (ix2 n l)) = Cert.AttnSpec.logit Q K M n l :=
    funext fun k => (congrArg (val_main_v13 (F := Ideal) Q K M) (lift_key h n l k)).trans (logit_at Q K M n l _)
  unfold val_main_v14
  refine (Host.reduce_eq_fold_single (FloatOps.maximumf (F := Ideal) (φ := .f32)) (val_main_v13 (F := Ideal) Q K M)
    (val_main_cst_3 (F := Ideal)) Gen.reducesTo_S8x2048x2048_S8x2048_d2 h Gen.h_S_ (ix2 n l)).trans ?_
  rw [hf]
  show Finset.fold max (Ideal.ofBits .f32 0xFF800000#32) (Cert.AttnSpec.logit Q K M n l) (Finset.univ : Finset (Fin 2048)) = _
  rw [negInf_word]
  rfl

/-- Floored once more at −∞, it is still the largest logit of the row. -/
theorem top_at (Q K : Cert.AttnSpec.Arr) (M : Cert.AttnSpec.Msk) (n : Fin 8) (l : Fin 2048) :
    val_main_v16 (F := Ideal) Q K M (ix2 n l) = Cert.AttnSpec.rowTop (Cert.AttnSpec.logit Q K M n l) := by
  rw [val_main_v16_apply, val_main_v15_apply, val_main_cst_4_apply, fold_at]
  simp only [Ideal.maximumf_def, Ideal.ofBits_def, negInf_word, bot_sup_eq, max_bot_left]

/-! ## Masses, their total, and the weights -/

/-- exp of a logit's distance below the largest of its row. -/
theorem mass_at (Q K : Cert.AttnSpec.Arr) (M : Cert.AttnSpec.Msk) (n : Fin 8) (l s : Fin 2048) :
    val_main_v20 (F := Ideal) Q K M (ix3 n l s) = Cert.AttnSpec.rowMass (Cert.AttnSpec.logit Q K M n l) s := by
  have e : idx_main_v17 (idx_main_v18 (ix3 n l s)) = ix2 n l :=
    funext fun a => Fin.ext (by match a with | ⟨0, _⟩ => rfl | ⟨1, _⟩ => rfl)
  rw [val_main_v20_apply, val_main_v19_apply, val_main_v18_apply, val_main_v17_apply, e, top_at, logit_at]
  simp only [Ideal.hostUnary_exp_def, Ideal.subf_def]
  unfold Cert.AttnSpec.rowMass
  rfl

/-- The sum of a row's masses. -/
theorem total_at (Q K : Cert.AttnSpec.Arr) (M : Cert.AttnSpec.Msk) (n : Fin 8) (l : Fin 2048) :
    val_main_v21 (F := Ideal) Q K M (ix2 n l) = Cert.AttnSpec.rowTotal (Cert.AttnSpec.logit Q K M n l) := by
  have e : ∀ k : Fin 2048, idx_main_v21 (ix2 n l) k = ix3 n l k := fun k =>
    funext fun a => Fin.ext (by match a with | ⟨0, _⟩ => rfl | ⟨1, _⟩ => rfl | ⟨2, _⟩ => rfl)
  rw [val_main_v21_apply, val_main_cst_5_apply]
  simp only [e, mass_at, Ideal.ofBits_def, Ideal.ofBits_zero_f32, zero_add]
  unfold Cert.AttnSpec.rowTotal
  rfl

/-- A mass as a share of its row's total. -/
theorem weight_at (Q K : Cert.AttnSpec.Arr) (M : Cert.AttnSpec.Msk) (n : Fin 8) (l s : Fin 2048) :
    val_main_v24 (F := Ideal) Q K M (ix3 n l s) = Cert.AttnSpec.rowWeight (Cert.AttnSpec.logit Q K M n l) s := by
  have e : idx_main_v22 (idx_main_v23 (ix3 n l s)) = ix2 n l :=
    funext fun a => Fin.ext (by match a with | ⟨0, _⟩ => rfl | ⟨1, _⟩ => rfl)
  rw [val_main_v24_apply, val_main_v23_apply, val_main_v22_apply, e, total_at, mass_at]
  simp only [Ideal.hostDivf_def]
  unfold Cert.AttnSpec.rowWeight
  rfl

/-! ## The two results -/

/-- The reference's weights are the specification's. -/
theorem ref_weights (Q K : Cert.AttnSpec.Arr) (M : Cert.AttnSpec.Msk) :
    val_main_v24 (F := Ideal) Q K M = Cert.AttnSpec.weights Q K M := by
  funext i
  obtain ⟨n, l, s, rfl⟩ : ∃ (n : Fin 8) (l s : Fin 2048), i = ix3 n l s := ⟨i 0, i 1, i 2, eq_ix3 i⟩
  rw [weight_at]
  rfl

/-- The reference's output is the specification's: each weight times the value row, summed over the keys. -/
theorem ref_outputs (Q K V : Cert.AttnSpec.Arr) (M : Cert.AttnSpec.Msk) :
    val_main_v25 (F := Ideal) Q K V M = Cert.AttnSpec.outputs Q K V M := by
  funext i
  obtain ⟨n, l, d, rfl⟩ : ∃ (n : Fin 8) (l : Fin 2048) (d : Fin 64), i = ix3 n l d := ⟨i 0, i 1, i 2, eq_ix3 i⟩
  have el : ∀ k : Fin 2048, lidx_main_v25 (ix3 n l d) k = ix3 n l k := fun k =>
    funext fun a => Fin.ext (by match a with | ⟨0, _⟩ => rfl | ⟨1, _⟩ => rfl | ⟨2, _⟩ => rfl)
  have er : ∀ k : Fin 2048, ridx_main_v25 (ix3 n l d) k = ix3 n k d := fun k =>
    funext fun a => Fin.ext (by match a with | ⟨0, _⟩ => rfl | ⟨1, _⟩ => rfl | ⟨2, _⟩ => rfl)
  rw [val_main_v25_apply]
  simp only [el, er, weight_at]
  rfl

end Cert.RefValue

end
-- ==== Proof.KerArrays.lean ====
/-
  From what each grid point writes back to the whole output arrays.

  The output of masked cosine attention has shape [8, 2048, 64] and its weights [8, 2048, 2048]. The 32 grid points
  t = 4·n + i (batch n = t / 4, query tile i = t % 4) each write one tile of 512 query rows: rows i·512 … i·512 + 511 of
  batch n. The 32 tiles are disjoint and fill both arrays. So if G is any function of the whole array's index and what
  point t leaves at row l of its tile is G at batch t / 4, row (t % 4)·512 + l, the array ends holding G.
-/
import proofs.«100238_j82712480186623_2_alg».proof.Proof.Gen.KernelIdeal.Value
import Idealize.ShloMosaic.Lib.Pipeline.Value
import Idealize.ShloMosaic.Lib.ValueIdx

noncomputable section

namespace Cert.KerArrays

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable {F : FTy → Type} [FloatOps F] [Named F]
variable (m : (ℓ : Loc nD τ sig) → Buf (Elt F) ℓ) (ρ : Dev nD → PrngReg)

/-! ## One tile, read where it sits -/

/-- A tile X of 512 rows of width w that agrees, row by row, with rows i·512 … of batch n of a whole array G agrees with G
    at every pair of indices j (in the tile) and k (in the array) whose coordinates are related in that way. -/
theorem tile_eq {α : Type} {w : Nat} (X : (⟨3, ![1, 512, w]⟩ : Shape).Idx → α) (G : (⟨3, ![8, 2048, w]⟩ : Shape).Idx → α)
    (n i : Nat) (hn : n < 8) (hi : i < 4)
    (h : ∀ (l : Fin 512) (s : Fin w),
      X (ix3 (0 : Fin 1) l s) = G (ix3 (⟨n, hn⟩ : Fin 8) (⟨i * 512 + l.val, by have := l.isLt; omega⟩ : Fin 2048) s))
    (j : (⟨3, ![1, 512, w]⟩ : Shape).Idx) (k : (⟨3, ![8, 2048, w]⟩ : Shape).Idx)
    (h0 : (k 0).val = n) (h1 : (k 1).val = i * 512 + (j 1).val) (h2 : (k 2).val = (j 2).val) : X j = G k := by
  obtain ⟨a, l, s, rfl⟩ : ∃ (a : Fin 1) (l : Fin 512) (s : Fin w), j = ix3 a l s := ⟨j 0, j 1, j 2, eq_ix3 j⟩
  obtain rfl : a = 0 := Subsingleton.elim _ _
  rw [h l s]
  refine congrArg G ?_
  funext d
  apply Fin.ext
  match d with
  | ⟨0, _⟩ => exact h0.symm
  | ⟨1, _⟩ => exact h1.symm
  | ⟨2, _⟩ => exact h2.symm

/-! ## The index maps of the two output windows -/

/-- Point t writes block (t / 4, t % 4, 0) of the output. -/
theorem index4 : ∀ t : Fin cfg0.N, win0_4.index t (0 : Fin 3) = t.val / 4 ∧ win0_4.index t (1 : Fin 3) = t.val % 4
    ∧ win0_4.index t (2 : Fin 3) = 0 :=
  (by decide +kernel : ∀ t : Fin grid0.N, _)

/-- Point t writes block (t / 4, t % 4, 0) of the weights. -/
theorem index5 : ∀ t : Fin cfg0.N, win0_5.index t (0 : Fin 3) = t.val / 4 ∧ win0_5.index t (1 : Fin 3) = t.val % 4
    ∧ win0_5.index t (2 : Fin 3) = 0 :=
  (by decide +kernel : ∀ t : Fin grid0.N, _)

/-! ## What a point writes back is its block of the whole-array function -/

/-- The weights: what point t writes back is block t of G, when the point's staging contents are G's rows of that block. -/
theorem flushed5_eq (c : Dev nD) (G : S8x2048x2048.Idx → Elt F .f32)
    (h : ∀ (t : Fin cfg0.N) (l : Fin 512) (s : Fin 2048),
      (outsAt0 m c t.val t.isLt).2.1 (ix3 (0 : Fin 1) l s)
        = G (ix3 (⟨t.val / 4, by have h1 := t.isLt; have h2 : cfg0.N = 32 := N_0; omega⟩ : Fin 8)
            (⟨t.val % 4 * 512 + l.val, by have := l.isLt; omega⟩ : Fin 2048) s))
    (t : Fin cfg0.N) :
    (dats m 0 c).flushed 5 t = ((cfg0.win 5).blk t).view.read (Elt F) G := by
  rw [flushed5]
  obtain ⟨e0, e1, e2⟩ := index5 t
  have hN : cfg0.N = 32 := N_0
  have ht := t.isLt
  funext y
  rw [View.read_apply]
  refine tile_eq _ G (t.val / 4) (t.val % 4) (by omega) (by omega) (h t) _ _ ?_ ?_ ?_
  · show win0_5.index t (0 : Fin 3) * 1 + 1 * (y 0).val = t.val / 4
    have hy : (y 0).val < 1 := (y 0).isLt
    omega
  · show win0_5.index t (1 : Fin 3) * 512 + 1 * (y 1).val = t.val % 4 * 512 + (y 1).val
    omega
  · show win0_5.index t (2 : Fin 3) * 2048 + 1 * (y 2).val = (y 2).val
    omega

/-- An index of the weights lies in point t's block iff each coordinate lies in the block's range on its axis. -/
theorem mem_blk5 (t : Fin cfg0.N) (i : S8x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v1_1).slice (win0_5.rect t)).set ↔ _
  rw [View.set_slice_whole, Rect.mem_set_unit]
  exact Iff.rfl

/-- Every index of the weights is in some point's block: row r of batch n is in the block of point 4·n + r / 512. -/
theorem cover5 (i : S8x2048x2048.Idx) :
    ∃ t : Fin cfg0.N, (cfg0.win 5).flush t = true ∧ i ∈ ((cfg0.win 5).blk t).view.set := by
  have hN : cfg0.N = 32 := N_0
  have hi0 : (i 0).val < 8 := (i 0).isLt
  have hi1 : (i 1).val < 2048 := (i 1).isLt
  have hi2 : (i 2).val < 2048 := (i 2).isLt
  obtain ⟨t, ht⟩ : ∃ t : Fin cfg0.N, t.val = 4 * (i 0).val + (i 1).val / 512 := ⟨⟨_, by omega⟩, rfl⟩
  obtain ⟨e0, e1, e2⟩ := index5 t
  refine ⟨t, flush0_5 t, ?_⟩
  rw [mem_blk5]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 2048 ≤ (i 2).val ∧ (i 2).val < win0_5.index t (2 : Fin 3) * 2048 + 2048
    omega

/-- THE WEIGHTS after the run: the whole-array function G, when what each point t leaves at row l of its tile is G at
    batch t / 4, row (t % 4)·512 + l. -/
theorem final5 (c : Dev nD) (G : S8x2048x2048.Idx → Elt F .f32)
    (h : ∀ (t : Fin cfg0.N) (l : Fin 512) (s : Fin 2048),
      (outsAt0 m c t.val t.isLt).2.1 (ix3 (0 : Fin 1) l s)
        = G (ix3 (⟨t.val / 4, by have h1 := t.isLt; have h2 : cfg0.N = 32 := N_0; omega⟩ : Fin 8)
            (⟨t.val % 4 * 512 + l.val, by have := l.isLt; omega⟩ : Fin 2048) s)) :
    (dats m 0 c).arrAt 5 cfg0.N = G :=
  (dats m 0 c).arrAt_eq_of_cover 5 G (fun t _ => flushed5_eq m c G h t) cover5

/-! ## The same for the attention output -/

/-- The output: what point t writes back is block t of G, when the point's staging contents are G's rows of that block. -/
theorem flushed4_eq (c : Dev nD) (G : S8x2048x64.Idx → Elt F .f32)
    (h : ∀ (t : Fin cfg0.N) (l : Fin 512) (d : Fin 64),
      (outsAt0 m c t.val t.isLt).1 (ix3 (0 : Fin 1) l d)
        = G (ix3 (⟨t.val / 4, by have h1 := t.isLt; have h2 : cfg0.N = 32 := N_0; omega⟩ : Fin 8)
            (⟨t.val % 4 * 512 + l.val, by have := l.isLt; omega⟩ : Fin 2048) d))
    (t : Fin cfg0.N) :
    (dats m 0 c).flushed 4 t = ((cfg0.win 4).blk t).view.read (Elt F) G := by
  rw [flushed4]
  obtain ⟨e0, e1, e2⟩ := index4 t
  have hN : cfg0.N = 32 := N_0
  have ht := t.isLt
  funext y
  rw [View.read_apply]
  refine tile_eq _ G (t.val / 4) (t.val % 4) (by omega) (by omega) (h t) _ _ ?_ ?_ ?_
  · show win0_4.index t (0 : Fin 3) * 1 + 1 * (y 0).val = t.val / 4
    have hy : (y 0).val < 1 := (y 0).isLt
    omega
  · show win0_4.index t (1 : Fin 3) * 512 + 1 * (y 1).val = t.val % 4 * 512 + (y 1).val
    omega
  · show win0_4.index t (2 : Fin 3) * 64 + 1 * (y 2).val = (y 2).val
    omega

/-- An index of the output lies in point t's block iff each coordinate lies in the block's range on its axis. -/
theorem mem_blk4 (t : Fin cfg0.N) (i : S8x2048x64.Idx) :
    i ∈ ((cfg0.win 4).blk t).view.set ↔ ∀ a : Fin 3, win0_4.index t a * S1x512x64.size a ≤ (i a).val
      ∧ (i a).val < win0_4.index t a * S1x512x64.size a + S1x512x64.size a := by
  show i ∈ ((View.whole main_v1_0).slice (win0_4.rect t)).set ↔ _
  rw [View.set_slice_whole, Rect.mem_set_unit]
  exact Iff.rfl

/-- Every index of the output is in some point's block: row r of batch n is in the block of point 4·n + r / 512. -/
theorem cover4 (i : S8x2048x64.Idx) :
    ∃ t : Fin cfg0.N, (cfg0.win 4).flush t = true ∧ i ∈ ((cfg0.win 4).blk t).view.set := by
  have hN : cfg0.N = 32 := N_0
  have hi0 : (i 0).val < 8 := (i 0).isLt
  have hi1 : (i 1).val < 2048 := (i 1).isLt
  have hi2 : (i 2).val < 64 := (i 2).isLt
  obtain ⟨t, ht⟩ : ∃ t : Fin cfg0.N, t.val = 4 * (i 0).val + (i 1).val / 512 := ⟨⟨_, by omega⟩, rfl⟩
  obtain ⟨e0, e1, e2⟩ := index4 t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 64 ≤ (i 2).val ∧ (i 2).val < win0_4.index t (2 : Fin 3) * 64 + 64
    omega

/-- THE OUTPUT after the run: the whole-array function G, when what each point t leaves at row l of its tile is G at
    batch t / 4, row (t % 4)·512 + l. -/
theorem final4 (c : Dev nD) (G : S8x2048x64.Idx → Elt F .f32)
    (h : ∀ (t : Fin cfg0.N) (l : Fin 512) (d : Fin 64),
      (outsAt0 m c t.val t.isLt).1 (ix3 (0 : Fin 1) l d)
        = G (ix3 (⟨t.val / 4, by have h1 := t.isLt; have h2 : cfg0.N = 32 := N_0; omega⟩ : Fin 8)
            (⟨t.val % 4 * 512 + l.val, by have := l.isLt; omega⟩ : Fin 2048) d)) :
    (dats m 0 c).arrAt 4 cfg0.N = G :=
  (dats m 0 c).arrAt_eq_of_cover 4 G (fun t _ => flushed4_eq m c G h t) cover4

/-! ## The run, with both arrays named -/

/-- The run of the whole program: the output array at G4, the weights at G5, the four arguments as launched, whenever
    the two arrays after the grid's write-backs are G4 and G5. -/
theorem kernel_run (G4 : (c : Dev nD) → S8x2048x64.Idx → Elt F .f32) (G5 : (c : Dev nD) → S8x2048x2048.Idx → Elt F .f32)
    (h4 : ∀ c, (dats m 0 c).arrAt 4 cfg0.N = G4 c) (h5 : ∀ c, (dats m 0 c).arrAt 5 cfg0.N = G5 c) :
    θ_run defs (onTc (τ := τ) (main (F := F))) ⟨m, fun _ => 0, ρ⟩ fun r => ∀ c : Dev nD,
      r.2.mem ((c : Thread nD τ).loc main_v1_0) = G4 c
      ∧ r.2.mem ((c : Thread nD τ).loc main_v1_1) = G5 c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (h4 c), (h c).2.1.trans (h5 c), (h c).2.2⟩) (run_blocks m ρ)

end Cert.KerArrays

end
-- ==== Proof.AttnClaims.lean ====
/-
  The claims, assembled.
  Both idealized programs end with the attention output o and the attention weights w of the specification:
  the reference because its operations ARE the specification's, one by one; the kernel because every grid point
  (n, i) leaves in its two output tiles the rows 512·i … 512·i + 511 of batch n of the specification's second
  arrangement, the 32 tiles fill the two arrays, and under the precondition — real queries and keys, an unmasked key in
  every mask row — the second arrangement gives the same numbers as the first.
  The three frames are the generated ones (the reference's is its generated run with the results dropped), and the
  idealization's one rewrite, the mask fill read as −∞, is its rule's statement.
-/
import proofs.«100238_j82712480186623_2_alg».proof.Defs
import proofs.«100238_j82712480186623_2_alg».proof.Proof.Gen.Kernel.Frame
import proofs.«100238_j82712480186623_2_alg».proof.Proof.Gen.KernelIdeal.Value
import proofs.«100238_j82712480186623_2_alg».proof.Proof.Gen.ReferenceIdeal.Read
import proofs.«100238_j82712480186623_2_alg».proof.Proof.Gen.Pre_finite_inputs
import proofs.«100238_j82712480186623_2_alg».proof.Proof.AttnAlgebra
import proofs.«100238_j82712480186623_2_alg».proof.Proof.PreDecode
import proofs.«100238_j82712480186623_2_alg».proof.Proof.RefValue
import proofs.«100238_j82712480186623_2_alg».proof.Proof.KerArrays

noncomputable section

namespace Cert.Proof.AttnClaims

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the idealization: the mask fill, a finite word standing for −∞, denotes −∞. -/
theorem preserves : Cert.preserves_Kernel_KernelIdeal :=
  IdealRules.named_const.statement Cert.KernelIdeal.κ "neg_big" .f32 0xFF333332#32 ⊥ rfl

section
open Cert.KernelIdeal Cert.KernelIdeal.Gen

/-- The algebraic claim, from what each grid point leaves in its two output tiles. -/
theorem algebraic_of_points
    (hW : ∀ (m : (ℓ : Loc nD τ sig) → Buf (Elt Ideal) ℓ) (c : Dev nD) (t : Fin cfg0.N) (l : Fin 512) (s : Fin 2048),
      (outsAt0 (F := Ideal) m c t.val t.isLt).2.1 (ix3 (0 : Fin 1) l s)
        = Cert.AttnSpec.weightsK (m ((c.tc : Thread nD τ).loc main_arg0)) (m ((c.tc : Thread nD τ).loc main_arg1))
            (m ((c.tc : Thread nD τ).loc main_arg3))
            (ix3 (⟨t.val / 4, by have h1 := t.isLt; have h2 : cfg0.N = 32 := N_0; omega⟩ : Fin 8)
              (⟨t.val % 4 * 512 + l.val, by have := l.isLt; omega⟩ : Fin 2048) s))
    (hO : ∀ (m : (ℓ : Loc nD τ sig) → Buf (Elt Ideal) ℓ) (c : Dev nD) (t : Fin cfg0.N) (l : Fin 512) (d : Fin 64),
      (outsAt0 (F := Ideal) m c t.val t.isLt).1 (ix3 (0 : Fin 1) l d)
        = Cert.AttnSpec.outputsK (m ((c.tc : Thread nD τ).loc main_arg0)) (m ((c.tc : Thread nD τ).loc main_arg1))
            (m ((c.tc : Thread nD τ).loc main_arg2)) (m ((c.tc : Thread nD τ).loc main_arg3))
            (ix3 (⟨t.val / 4, by have h1 := t.isLt; have h2 : cfg0.N = 32 := N_0; omega⟩ : Fin 8)
              (⟨t.val % 4 * 512 + l.val, by have := l.isLt; omega⟩ : Fin 2048) d)) :
    Cert.algebraic_KernelIdeal_ReferenceIdeal := by
  intro m ρ m' ρ' hpre hagree
  refine ⟨fun c => Cert.AttnSpec.outputs (m ((c.tc : Thread nD τ).loc main_arg0)) (m ((c.tc : Thread nD τ).loc main_arg1))
      (m ((c.tc : Thread nD τ).loc main_arg2)) (m ((c.tc : Thread nD τ).loc main_arg3)),
    fun c => Cert.AttnSpec.weights (m ((c.tc : Thread nD τ).loc main_arg0)) (m ((c.tc : Thread nD τ).loc main_arg1))
      (m ((c.tc : Thread nD τ).loc main_arg3)), ?_, ?_⟩
  · refine Cert.KerArrays.kernel_run m ρ _ _ (fun c => ?_) (fun c => ?_)
    · obtain ⟨hQ, hK, hM⟩ := Cert.PreDecode.decode _ _ _ _ (hpre c)
      rw [← Cert.AttnSpec.outputsK_eq _ _ _ hQ hK hM]
      exact Cert.KerArrays.final4 m c _ (hO m c)
    · obtain ⟨hQ, hK, hM⟩ := Cert.PreDecode.decode _ _ _ _ (hpre c)
      rw [← Cert.AttnSpec.weightsK_eq _ _ _ hQ hK hM]
      exact Cert.KerArrays.final5 m c _ (hW m c)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v25_eq, (hagree c).1, (hagree c).2.1, (hagree c).2.2.1,
        (hagree c).2.2.2]
      exact Cert.RefValue.ref_outputs _ _ _ _
    · rw [(h c).2.1, Cert.ReferenceIdeal.Read.val_main_v24_eq, (hagree c).1, (hagree c).2.1, (hagree c).2.2.2]
      exact Cert.RefValue.ref_weights _ _ _

end

end Cert.Proof.AttnClaims

end
-- ==== Proof.LibWholeStore.lean ====
/-
  A buffer written whole by ONE store and then read through any rectangle: the load reads the stored value through the
  rectangle, whatever the buffer held before. (A cache filled at one step of a kernel body and read back in slices later
  in the same body.)
-/
import Idealize.ShloMosaic.Lib.Pipeline.Value
import Idealize.ShloMosaic.Lib.Pipeline.FrameBody

noncomputable section

namespace Cert.LibWholeStore

open Idealize.ShloMosaic

/-- A load through any rectangle `B`, after one store through the whole-shape rectangle at zero offsets (however the
    zeros are spelt), reads the stored value `w` through `B`. -/
theorem readCov_whole_piece {sig : RefSig} {κ : Kind} {sp : Space} {S : Shape} {e : EltTy} {Val : EltTy → Type} [∀ e, Nonempty (Val e)]
    (v : View sig κ sp S e) {off : Fin S.rank → Nat} (h : off = fun _ => 0)
    (inb : ∀ a, off a + S.size a ≤ S.size a) (w : S.Idx → Val e) (B : Rect S) :
    v.readCov [(⟨Rect.unit off S.size inb, w⟩ : View.Piece Val S e)] B.toLoadRect = View.ld w B := by
  subst h
  rw [View.readCov_eq_canon_ld _ _ _ (fun y => ⟨_, List.mem_singleton_self _, by
    show y ∈ (Rect.whole S).set; rw [Rect.set_whole]; exact Finset.mem_univ y⟩), View.canon_unit_zero rfl]

end Cert.LibWholeStore

end
-- ==== Proof.KerPieces.lean ====
/-
  What one grid point of the attention kernel leaves in its buffers, as the body's arithmetic applied to what it
  loaded. A point stores each buffer whole, once, so what a buffer ends holding is that one store's payload; the
  payload's loads read whole input blocks, and — at a point that refills the two caches — the caches just stored.
  Stated for any float model.
-/
import proofs.«100238_j82712480186623_2_alg».proof.Proof.Gen.KernelIdeal.Frame
import proofs.«100238_j82712480186623_2_alg».proof.Proof.LibWholeStore

set_option maxRecDepth 16384

noncomputable section

namespace Cert.KerPieces

open Idealize.ShloMosaic Idealize.ShloMosaic.TcCoe Idealize.ShloMosaic.Tactic
open Idealize.SL.Sem
open Cert.KernelIdeal Cert.KernelIdeal.Gen

variable {F : FTy → Type} [FloatOps F] [Named F]

/-- The zero offsets of a rank-2 and a rank-3 rectangle, as the constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## A point that refills the two caches (the first query tile of a batch) -/

/-- The first cache is left holding the directions of the key rows: the one whole store's payload, of the key block
    loaded whole. -/
theorem sout_A_0_eq (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x2048 .i32) (harg5 : arg5.IsWhole) (arg6 : Memref sig .tc .vmem S1x512x64 .f32) (harg6 : arg6.IsWhole) (arg7 : Memref sig .tc .vmem S1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i)
    (x0 : Vec F S1x512x64 .f32) (x1 : Vec F S1x2048x64 .f32) (x2 : Vec F S1x2048x64 .f32) (x3 : Vec F S1x512x2048 .i32) :
    sout0_A_0 c i arg2 harg2 arg3 harg3 arg4 harg4 arg5 harg5 arg6 harg6 arg7 harg7 arg8 harg8 arg9 harg9 hc0 x0 x1 x2 x3 = k0_pay3 x1 := by
  unfold sout0_A_0
  rw [View.read_writes_junk_eq_canon]
  unfold kernelRun0_A
  dsimp only
  sl_unfold_words
  rw [View.canon_unit_zero (S := S2048x64) hz2]
  simp only [View.readAt_eq_ld, harg3.read_unread, View.ld_unit_zero (S := S1x2048x64) hz3]

/-- The second cache is left holding the value rows. -/
theorem sout_A_1_eq (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x2048 .i32) (harg5 : arg5.IsWhole) (arg6 : Memref sig .tc .vmem S1x512x64 .f32) (harg6 : arg6.IsWhole) (arg7 : Memref sig .tc .vmem S1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i)
    (x0 : Vec F S1x512x64 .f32) (x1 : Vec F S1x2048x64 .f32) (x2 : Vec F S1x2048x64 .f32) (x3 : Vec F S1x512x2048 .i32) :
    sout0_A_1 c i arg2 harg2 arg3 harg3 arg4 harg4 arg5 harg5 arg6 harg6 arg7 harg7 arg8 harg8 arg9 harg9 hc0 x0 x1 x2 x3 = k0_pay4 x2 := by
  unfold sout0_A_1
  rw [View.read_writes_junk_eq_canon]
  unfold kernelRun0_A
  dsimp only
  sl_unfold_words
  rw [View.canon_unit_zero (S := S2048x64) hz2]
  simp only [View.readAt_eq_ld, harg4.read_unread, View.ld_unit_zero (S := S1x2048x64) hz3]

/-- The weights tile: the weights of the query tile against the first cache as just refilled (the load of the cache
    after its whole store reads the stored directions). -/
theorem out_A_5_eq (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x2048 .i32) (harg5 : arg5.IsWhole) (arg6 : Memref sig .tc .vmem S1x512x64 .f32) (harg6 : arg6.IsWhole) (arg7 : Memref sig .tc .vmem S1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i)
    (x0 : Vec F S1x512x64 .f32) (x1 : Vec F S1x2048x64 .f32) (x2 : Vec F S1x2048x64 .f32) (x3 : Vec F S1x512x2048 .i32) :
    out0_A_5 c i arg2 harg2 arg3 harg3 arg4 harg4 arg5 harg5 arg6 harg6 arg7 harg7 arg8 harg8 arg9 harg9 hc0 x0 x1 x2 x3 = k0_pay1 (k0_pay5 x0 x3 (k0_pay3 x1)) := by
  unfold out0_A_5
  rw [View.read_writes_junk_eq_canon]
  unfold kernelRun0_A
  dsimp only
  sl_unfold_words
  refine (View.canon_unit_zero (S := S1x512x2048) hz3 _ _).trans ?_
  rw [Cert.LibWholeStore.readCov_whole_piece (S := S2048x64) _ hz2]
  simp only [View.readAt_eq_ld, harg2.read_unread, harg3.read_unread, harg5.read_unread,
    View.ld_unit_zero (S := S1x512x64) hz3, View.ld_unit_zero (S := S1x2048x64) hz3,
    View.ld_unit_zero (S := S1x512x2048) hz3, View.ld_unit_zero (S := S2048x64) hz2]

/-- The output tile: those weights against the second cache as just refilled. -/
theorem out_A_4_eq (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x2048 .i32) (harg5 : arg5.IsWhole) (arg6 : Memref sig .tc .vmem S1x512x64 .f32) (harg6 : arg6.IsWhole) (arg7 : Memref sig .tc .vmem S1x512x2048 .f32) (harg7 : arg7.IsWhole) (arg8 : Memref sig .tc .vmem S2048x64 .bf16) (harg8 : arg8.IsWhole) (arg9 : Memref sig .tc .vmem S2048x64 .bf16) (harg9 : arg9.IsWhole) (hc0 : cond0_0 i)
    (x0 : Vec F S1x512x64 .f32) (x1 : Vec F S1x2048x64 .f32) (x2 : Vec F S1x2048x64 .f32) (x3 : Vec F S1x512x2048 .i32) :
    out0_A_4 c i arg2 harg2 arg3 harg3 arg4 harg4 arg5 harg5 arg6 harg6 arg7 harg7 arg8 harg8 arg9 harg9 hc0 x0 x1 x2 x3 = k0_pay2 (k0_pay5 x0 x3 (k0_pay3 x1)) (k0_pay4 x2) := by
  unfold out0_A_4
  rw [View.read_writes_junk_eq_canon]
  unfold kernelRun0_A
  dsimp only
  sl_unfold_words
  refine (View.canon_unit_zero (S := S1x512x64) hz3 _ _).trans ?_
  rw [Cert.LibWholeStore.readCov_whole_piece (S := S2048x64) arg8.view hz2,
    Cert.LibWholeStore.readCov_whole_piece (S := S2048x64) arg9.view hz2]
  simp only [View.readAt_eq_ld, harg2.read_unread, harg3.read_unread, harg4.read_unread, harg5.read_unread,
    View.ld_unit_zero (S := S1x512x64) hz3, View.ld_unit_zero (S := S1x2048x64) hz3,
    View.ld_unit_zero (S := S1x512x2048) hz3, View.ld_unit_zero (S := S2048x64) hz2]

/-! ## A point that carries the two caches (the later query tiles of a batch) -/

/-- The weights tile: the weights of the query tile against the first cache as the point before left it. -/
theorem out_B_5_eq (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x2048 .i32) (harg5 : arg5.IsWhole) (arg6 : Memref sig .tc .vmem S1x512x64 .f32) (harg6 : arg6.IsWhole) (arg7 : Memref sig .tc .vmem S1x512x2048 .f32) (harg7 : arg7.IsWhole) (arg8 : Memref sig .tc .vmem S2048x64 .bf16) (harg8 : arg8.IsWhole) (arg9 : Memref sig .tc .vmem S2048x64 .bf16) (harg9 : arg9.IsWhole) (hc0 : ¬cond0_0 i)
    (x0 : Vec F S1x512x64 .f32) (x1 : Vec F S1x2048x64 .f32) (x2 : Vec F S1x2048x64 .f32) (x3 : Vec F S1x512x2048 .i32) (xs0 : Vec F S2048x64 .bf16) (xs1 : Vec F S2048x64 .bf16) :
    out0_B_5 c i arg2 harg2 arg3 harg3 arg4 harg4 arg5 harg5 arg6 harg6 arg7 harg7 arg8 harg8 arg9 harg9 hc0 x0 x1 x2 x3 xs0 xs1 = k0_pay1 (k0_pay5 x0 x3 xs0) := by
  unfold out0_B_5
  rw [View.read_writes_junk_eq_canon]
  unfold kernelRun0_B
  dsimp only
  sl_unfold_words
  refine (View.canon_unit_zero (S := S1x512x2048) hz3 _ _).trans ?_
  simp only [View.readAt_eq_ld, harg2.read_unread, harg5.read_unread, harg8.read_unread,
    View.ld_unit_zero (S := S1x512x64) hz3, View.ld_unit_zero (S := S1x512x2048) hz3,
    View.ld_unit_zero (S := S2048x64) hz2]

/-- The output tile: those weights against the second cache as the point before left it. -/
theorem out_B_4_eq (c : Dev nD) (i : grid0.Coords) (arg2 : Memref sig .tc .vmem S1x512x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S1x512x2048 .i32) (harg5 : arg5.IsWhole) (arg6 : Memref sig .tc .vmem S1x512x64 .f32) (harg6 : arg6.IsWhole) (arg7 : Memref sig .tc .vmem S1x512x2048 .f32) (harg7 : arg7.IsWhole) (arg8 : Memref sig .tc .vmem S2048x64 .bf16) (harg8 : arg8.IsWhole) (arg9 : Memref sig .tc .vmem S2048x64 .bf16) (harg9 : arg9.IsWhole) (hc0 : ¬cond0_0 i)
    (x0 : Vec F S1x512x64 .f32) (x1 : Vec F S1x2048x64 .f32) (x2 : Vec F S1x2048x64 .f32) (x3 : Vec F S1x512x2048 .i32) (xs0 : Vec F S2048x64 .bf16) (xs1 : Vec F S2048x64 .bf16) :
    out0_B_4 c i arg2 harg2 arg3 harg3 arg4 harg4 arg5 harg5 arg6 harg6 arg7 harg7 arg8 harg8 arg9 harg9 hc0 x0 x1 x2 x3 xs0 xs1 = k0_pay2 (k0_pay5 x0 x3 xs0) xs1 := by
  unfold out0_B_4
  rw [View.read_writes_junk_eq_canon]
  unfold kernelRun0_B
  dsimp only
  sl_unfold_words
  refine (View.canon_unit_zero (S := S1x512x64) hz3 _ _).trans ?_
  simp only [View.readAt_eq_ld, harg2.read_unread, harg5.read_unread, harg8.read_unread, harg9.read_unread,
    View.ld_unit_zero (S := S1x512x64) hz3, View.ld_unit_zero (S := S1x512x2048) hz3,
    View.ld_unit_zero (S := S2048x64) hz2]

end Cert.KerPieces

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.LibKeepdims.lean ====
/-
  Column ("keepdims") layout forms, one-axis reductions of a matrix and the one-hot mask, read at an index.

  A reduction that keeps its axis as a unit axis leaves a column `[a, 1]`; the next operation broadcasts the column along
  the rows' entries. Lib/ValueLayout.lean has the leading-unit-axis casts and the row broadcast `[1, b] → [a, b]`; here are
  the column cast `[a] → [a, 1]` and the column broadcast `[a, 1] → [a, b]`, in the same style.

  At the ideal values a `vector.multi_reduction` of a matrix over one of its two axes is the sum (or the fold of `max`)
  over that axis's coordinates with the other coordinate fixed: PureOps/Ideal/Laws.lean's one-axis readings with the
  inserted index written by coordinates.

  The one-hot mask `(iota along d == w)` converted to a float is `1` where the coordinate's word is `w` and `0` elsewhere; a
  sum of products with it keeps the one selected term, whatever the other factor is (on the extended reals `x * 0 = 0` and
  `x * 1 = x` for every `x`, infinite or not).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibKeepdims

open Idealize.ShloMosaic Idealize.ShloMosaic.ValueIdx

/-! ## The column cast and the column broadcast -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A matrix reduced over one axis, at the ideal values -/

section Reduce
variable {φ : FTy}

/-- The sum over the entries of each row: `[a, b]` reduced over axis 1, read at row `i`. -/
theorem multiReduction_add_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

/-- The sum over the rows of each column: `[a, b]` reduced over axis 0, read at column `k`. -/
theorem multiReduction_add_axis0 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ i : Fin a, src (ix2 i k) :=
  (Ideal.multiReduction_add_single src acc h hφ hacc (ix1 k)).trans
    (Finset.sum_congr rfl fun i _ => congrArg src (funext fun c => Fin.ext (by
      match c with
      | ⟨0, _⟩ => rfl
      | ⟨1, _⟩ => rfl)))

/-- The maximum over the entries of each row, from the accumulator's value: `[a, b]` reduced by `max` over axis 1. -/
theorem multiReduction_maximumf_axis1 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg ((Finset.univ : Finset (Fin b)).fold max (Ideal.ofBits φ acc)) (funext fun k => congrArg src (funext fun c => Fin.ext (by
      match c with
      | ⟨0, _⟩ => rfl
      | ⟨1, _⟩ => rfl))))

end Reduce

/-! ## The one-hot mask -/

section Mask

/-- Two naturals below `2 ^ 32` have the same 32-bit word exactly when they are equal. -/
theorem ofNat32_eq_iff {n b : ℕ} (hn : n < 2 ^ 32) (hb : b < 2 ^ 32) : BitVec.ofNat 32 n = BitVec.ofNat 32 b ↔ n = b := by
  constructor
  · intro e
    have := congrArg BitVec.toNat e
    rwa [BitVec.toNat_ofNat, BitVec.toNat_ofNat, Nat.mod_eq_of_lt hn, Nat.mod_eq_of_lt hb] at this
  · intro e; rw [e]

/-- A comparison bit, widened to a word and read as a signed integer at the ideal values, is `1` or `0`. -/
theorem sitofp_extui_cmpi_eq (x y : BitVec 32) (h : 1 < 32) :
    (FloatOps.sitofp (F := Ideal) .f32 ((IntOp.cmpi .eq x y).setWidth 32) : EReal) = if x = y then 1 else 0 := by
  show (((((BitVec.ofBool (x == y)).setWidth 32).toInt : ℝ)) : EReal) = _
  by_cases e : x = y
  · have h1 : ((BitVec.ofBool true).setWidth 32).toInt = 1 := by decide
    rw [if_pos e, beq_iff_eq.2 e, h1, Int.cast_one, EReal.coe_one]
  · have h0 : ((BitVec.ofBool false).setWidth 32).toInt = 0 := by decide
    rw [if_neg e, beq_eq_false_iff_ne.2 e, h0, Int.cast_zero, EReal.coe_zero]

/-- The mask `(iota along d == w)` as a float: `1` where the coordinate's word is `w`, `0` elsewhere. -/
theorem mask_apply (s : Shape) (d : Fin s.rank) (h : s.Iotas .tc 32 [d]) (w : BitVec 32) (hlt : 1 < 32) (i : s.Idx) :
    (sitofp .f32 (extui 32 (cmpi .eq (iota .tc s 32 [d] h) (broadcast s w)) hlt) : FVec Ideal s .f32) i
      = if BitVec.ofNat 32 (i d).val = w then (1 : EReal) else 0 := by
  rw [sitofp_apply, extui_apply]
  show (FloatOps.sitofp (F := Ideal) .f32 ((IntOp.cmpi .eq (iota .tc s 32 [d] h i) w).setWidth 32) : EReal) = _
  rw [iota_single_apply, sitofp_extui_cmpi_eq _ _ hlt]

/-- The same against the word of a natural `b`: the mask picks the coordinate `b`. -/
theorem mask_ofNat_apply (s : Shape) (d : Fin s.rank) (h : s.Iotas .tc 32 [d]) (b : ℕ) (hlt : 1 < 32) (i : s.Idx)
    (hi : (i d).val < 2 ^ 32) (hb : b < 2 ^ 32) :
    (sitofp .f32 (extui 32 (cmpi .eq (iota .tc s 32 [d] h) (broadcast s (BitVec.ofNat 32 b))) hlt) : FVec Ideal s .f32) i
      = if (i d).val = b then (1 : EReal) else 0 := by
  rw [mask_apply]
  by_cases e : (i d).val = b
  · rw [if_pos e, if_pos ((ofNat32_eq_iff hi hb).2 e)]
  · rw [if_neg e, if_neg (fun e' => e ((ofNat32_eq_iff hi hb).1 e'))]

/-- A sum of products with a one-hot factor keeps the selected term. No finiteness is asked: on the extended reals
    `x * 0 = 0` and `x * 1 = x` for every `x`. -/
theorem sum_mul_onehot {n : ℕ} (f : Fin n → EReal) (b : Fin n) :
    ∑ l : Fin n, f l * (if l.val = b.val then (1 : EReal) else 0) = f b := by
  rw [Finset.sum_eq_single b]
  · rw [if_pos rfl, mul_one]
  · intro l _ hl
    rw [if_neg (fun e => hl (Fin.ext e)), mul_zero]
  · intro hb; exact absurd (Finset.mem_univ b) hb

end Mask

end Cert.LibKeepdims

end
-- ==== Proof.KerPayload.lean ====
/-
  The kernel body's arithmetic, read entry by entry over the extended reals.

  The body computes five values: the directions of the key rows (each row of 64 entries divided by its Euclidean length
  floored at ε), the value rows unchanged, the attention weights of a tile of 512 query rows against all 2048 keys, that
  tile recast with a leading unit axis, and the weights' product with the value rows. Each is read here at one index as the
  specification's row functions of the entries it depends on.
-/
import proofs.«100238_j82712480186623_2_alg».proof.Proof.Gen.KernelIdeal.Skeleton
import proofs.«100238_j82712480186623_2_alg».proof.Proof.AttnSpec
import proofs.«100238_j82712480186623_2_alg».proof.Proof.LibMatmulIx
import proofs.«100238_j82712480186623_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerPayload

open Idealize.ShloMosaic Idealize.ShloMosaic.ValueIdx Cert.KernelIdeal Cert.KernelIdeal.Gen

/-! ## The value rows, the recast weights and the output -/

/-- The value rows are stored as they are read: the entry `(s, d)` is the entry `(0, s, d)` of the block. -/
theorem pay4_apply (x2 : Vec Ideal S1x2048x64 .f32) (s : Fin 2048) (d : Fin 64) :
    k0_pay4 (F := Ideal) x2 (ix2 s d) = x2 (ix3 (0 : Fin 1) s d) := by
  unfold k0_pay4
  refine (congrFun (shapeCast_self _ _) (ix2 s d)).trans ?_
  exact shapeCast_1ab_ab_apply x2 _ s d

/-- The weights recast with a leading unit axis: the entry `(0, l, s)` is the weight `(l, s)`. -/
theorem pay1_apply (v34 : FVec Ideal S512x2048 .f32) (l : Fin 512) (s : Fin 2048) :
    k0_pay1 (F := Ideal) v34 (ix3 (0 : Fin 1) l s) = v34 (ix2 l s) := by
  unfold k0_pay1
  exact shapeCast_ab_1ab_apply v34 _ (0 : Fin 1) l s

/-- The output tile: the entry `(0, l, d)` is the sum over the keys of the weight `(l, s)` times the value `(s, d)`. -/
theorem pay2_apply (v34 : FVec Ideal S512x2048 .f32) (v39 : Vec Ideal S2048x64 .bf16) (l : Fin 512) (d : Fin 64) :
    k0_pay2 (F := Ideal) v34 v39 (ix3 (0 : Fin 1) l d) = ∑ s : Fin 2048, v34 (ix2 l s) * v39 (ix2 s d) := by
  unfold k0_pay2
  refine (shapeCast_ab_1ab_apply _ _ (0 : Fin 1) l d).trans ?_
  exact Cert.LibMatmulIx.matmul_zero_apply _ none (truncf .bf16 v34 bitsLt_bf16_f32) v39 l d

/-! ## The direction of a row -/

/-- The word `0xFF800000` denotes −∞. -/
theorem ofBits_neg_inf : Ideal.ofBits .f32 0xFF800000#32 = (⊥ : EReal) := by
  simp [Ideal.ofBits, Ideal.ieee]

/-- A matrix of `a` rows of 64 entries, each row divided by its Euclidean length floored at ε: the entry `(p, d)` is the
    direction of row `p` at `d`. -/
theorem dir_apply {a : ℕ} (x : FVec Ideal ⟨2, ![a, 64]⟩ .f32)
    (hr : (⟨2, ![a, 64]⟩ : Shape).Reduces [1] ⟨1, ![a]⟩)
    (hc : (⟨1, ![a]⟩ : Shape).ShapeCasts ⟨2, ![a, 1]⟩)
    (hb : (⟨2, ![a, 1]⟩ : Shape).Broadcasts ⟨2, ![a, 64]⟩)
    (hacc : (0x00000000#32 : BitVec 32) = 0x00000000#32) (p : Fin a) (d : Fin 64) :
    divf x (broadcastTo ⟨2, ![a, 64]⟩
        (maximumf (sqrt (shapeCast ⟨2, ![a, 1]⟩
            (multiReduction (F := Ideal) .add [1] ⟨1, ![a]⟩ (mulf x x) 0x00000000#32 hr (.inl rfl) hacc) hc))
          (broadcast (⟨2, ![a, 1]⟩ : Shape) (Scalar.ofBits (F := Ideal) .f32 0x2B8CBCCC#32))) hb) (ix2 p d)
      = Cert.AttnSpec.rowDir (fun d' => x (ix2 p d')) d := by
  rw [divf_apply]
  refine congrArg (Ideal.div (x (ix2 p d))) ?_
  refine (Cert.LibKeepdims.broadcastTo_a1_ab_apply _ hb p d).trans ?_
  rw [maximumf_apply]
  show max (Ideal.sqrt (shapeCast ⟨2, ![a, 1]⟩ _ hc (ix2 p (0 : Fin 1)))) _ = _
  rw [Cert.LibKeepdims.shapeCast_a_a1_apply _ hc p (0 : Fin 1),
    Cert.LibKeepdims.multiReduction_add_axis1 (mulf x x) 0x00000000#32 hr (.inl rfl) hacc p]
  rfl

/-- The stored key rows: the entry `(s, d)` is the direction of key row `s` of the block, at `d`. -/
theorem pay3_apply (x1 : Vec Ideal S1x2048x64 .f32) (s : Fin 2048) (d : Fin 64) :
    k0_pay3 (F := Ideal) x1 (ix2 s d) = Cert.AttnSpec.rowDir (fun d' => x1 (ix3 (0 : Fin 1) s d')) d := by
  unfold k0_pay3
  refine (congrFun (shapeCast_self _ _) (ix2 s d)).trans ?_
  refine (dir_apply (shapeCast S2048x64 x1 shapeCasts_S1x2048x64_S2048x64) reduces_S2048x64_S2048
    shapeCasts_S2048_S2048x1 broadcasts_S2048x1_S2048x64 rfl s d).trans ?_
  exact congrArg (fun r => Cert.AttnSpec.rowDir r d)
    (funext fun d' => shapeCast_1ab_ab_apply x1 shapeCasts_S1x2048x64_S2048x64 s d')

/-! ## The weights of a row of logits -/

/-- The constant the kernel fills the masked logits with is named −∞ by the certificate's table. -/
theorem neg_big_eq : Named.named (F := Ideal) Cert.KernelIdeal.κ "neg_big" (φ := .f32) 0xFF333332#32 = (⊥ : EReal) :=
  IdealRules.named_const.ideal_named_scalar _ _ _ _ rfl

/-- The column of the rows' maxima, broadcast along the rows: every entry of row `l` is the largest logit of row `l`. -/
theorem top_apply {a : ℕ} (z : FVec Ideal ⟨2, ![a, 2048]⟩ .f32)
    (hr : (⟨2, ![a, 2048]⟩ : Shape).Reduces [1] ⟨1, ![a]⟩)
    (hc : (⟨1, ![a]⟩ : Shape).ShapeCasts ⟨2, ![a, 1]⟩)
    (hb : (⟨2, ![a, 1]⟩ : Shape).Broadcasts ⟨2, ![a, 2048]⟩)
    (hmax : (0xFF800000#32 : BitVec 32) = 0xFF800000#32) (l : Fin a) (s : Fin 2048) :
    broadcastTo ⟨2, ![a, 2048]⟩ (shapeCast ⟨2, ![a, 1]⟩
        (multiReduction (F := Ideal) .maximumf [1] ⟨1, ![a]⟩ z 0xFF800000#32 hr (.inl rfl) hmax) hc) hb (ix2 l s)
      = Cert.AttnSpec.rowTop (fun s' => z (ix2 l s')) := by
  refine (Cert.LibKeepdims.broadcastTo_a1_ab_apply _ hb l s).trans ?_
  refine (Cert.LibKeepdims.shapeCast_a_a1_apply _ hc l (0 : Fin 1)).trans ?_
  refine (Cert.LibKeepdims.multiReduction_maximumf_axis1 z 0xFF800000#32 hr (.inl rfl) hmax l).trans ?_
  unfold Cert.AttnSpec.rowTop
  rw [ofBits_neg_inf]

/-- exp of each logit's distance below its row's largest: the entry `(l, s)` is the mass of logit `s` of row `l`. -/
theorem mass_apply {a : ℕ} (z : FVec Ideal ⟨2, ![a, 2048]⟩ .f32)
    (hr : (⟨2, ![a, 2048]⟩ : Shape).Reduces [1] ⟨1, ![a]⟩)
    (hc : (⟨1, ![a]⟩ : Shape).ShapeCasts ⟨2, ![a, 1]⟩)
    (hb : (⟨2, ![a, 1]⟩ : Shape).Broadcasts ⟨2, ![a, 2048]⟩)
    (hmax : (0xFF800000#32 : BitVec 32) = 0xFF800000#32) (l : Fin a) (s : Fin 2048) :
    exp (subf z (broadcastTo ⟨2, ![a, 2048]⟩ (shapeCast ⟨2, ![a, 1]⟩
        (multiReduction (F := Ideal) .maximumf [1] ⟨1, ![a]⟩ z 0xFF800000#32 hr (.inl rfl) hmax) hc) hb)) (ix2 l s)
      = Cert.AttnSpec.rowMass (fun s' => z (ix2 l s')) s := by
  show Ideal.exp (z (ix2 l s) - broadcastTo ⟨2, ![a, 2048]⟩ (shapeCast ⟨2, ![a, 1]⟩
        (multiReduction (F := Ideal) .maximumf [1] ⟨1, ![a]⟩ z 0xFF800000#32 hr (.inl rfl) hmax) hc) hb (ix2 l s)) = _
  rw [top_apply z hr hc hb hmax l s]
  rfl

/-- Each mass times the reciprocal of its row's total: the entry `(l, s)` is the weight of logit `s` of row `l`, in the
    arrangement that multiplies by the reciprocal. -/
theorem weightK_apply {a : ℕ} (z : FVec Ideal ⟨2, ![a, 2048]⟩ .f32)
    (hr : (⟨2, ![a, 2048]⟩ : Shape).Reduces [1] ⟨1, ![a]⟩)
    (hc : (⟨1, ![a]⟩ : Shape).ShapeCasts ⟨2, ![a, 1]⟩)
    (hb : (⟨2, ![a, 1]⟩ : Shape).Broadcasts ⟨2, ![a, 2048]⟩)
    (hmax : (0xFF800000#32 : BitVec 32) = 0xFF800000#32)
    (hadd : (0x00000000#32 : BitVec 32) = 0x00000000#32) (l : Fin a) (s : Fin 2048) :
    mulf
      (exp (subf z (broadcastTo ⟨2, ![a, 2048]⟩ (shapeCast ⟨2, ![a, 1]⟩
        (multiReduction (F := Ideal) .maximumf [1] ⟨1, ![a]⟩ z 0xFF800000#32 hr (.inl rfl) hmax) hc) hb)))
      (broadcastTo ⟨2, ![a, 2048]⟩
        (divf (broadcast (⟨2, ![a, 1]⟩ : Shape) (Scalar.ofBits (F := Ideal) .f32 0x3F800000#32))
          (shapeCast ⟨2, ![a, 1]⟩
            (multiReduction (F := Ideal) .add [1] ⟨1, ![a]⟩
              (exp (subf z (broadcastTo ⟨2, ![a, 2048]⟩ (shapeCast ⟨2, ![a, 1]⟩
                (multiReduction (F := Ideal) .maximumf [1] ⟨1, ![a]⟩ z 0xFF800000#32 hr (.inl rfl) hmax) hc) hb)))
              0x00000000#32 hr (.inl rfl) hadd) hc)) hb) (ix2 l s)
      = Cert.AttnSpec.rowWeightK (fun s' => z (ix2 l s')) s := by
  rw [mulf_apply, mass_apply z hr hc hb hmax l s]
  refine congrArg (fun t => Cert.AttnSpec.rowMass (fun s' => z (ix2 l s')) s * t) ?_
  refine (Cert.LibKeepdims.broadcastTo_a1_ab_apply _ hb l s).trans ?_
  rw [divf_apply]
  refine congrArg (Ideal.div Cert.AttnSpec.one) ?_
  refine (Cert.LibKeepdims.shapeCast_a_a1_apply _ hc l (0 : Fin 1)).trans ?_
  refine (Cert.LibKeepdims.multiReduction_add_axis1 _ 0x00000000#32 hr (.inl rfl) hadd l).trans ?_
  exact Finset.sum_congr rfl fun k _ => mass_apply z hr hc hb hmax l k

/-! ## The logits and the weights of the tile -/

/-- The query rows' directions scaled by 1/8: the entry `(p, d)` is the direction of row `p` at `d`, times 1/8. -/
theorem scaledDir_apply {a : ℕ} (x : FVec Ideal ⟨2, ![a, 64]⟩ .f32)
    (hr : (⟨2, ![a, 64]⟩ : Shape).Reduces [1] ⟨1, ![a]⟩)
    (hc : (⟨1, ![a]⟩ : Shape).ShapeCasts ⟨2, ![a, 1]⟩)
    (hb : (⟨2, ![a, 1]⟩ : Shape).Broadcasts ⟨2, ![a, 64]⟩)
    (hacc : (0x00000000#32 : BitVec 32) = 0x00000000#32) (hlt : FTy.bits .bf16 < FTy.bits .f32) (p : Fin a) (d : Fin 64) :
    (truncf .bf16 (mulf
        (divf x (broadcastTo ⟨2, ![a, 64]⟩
          (maximumf (sqrt (shapeCast ⟨2, ![a, 1]⟩
              (multiReduction (F := Ideal) .add [1] ⟨1, ![a]⟩ (mulf x x) 0x00000000#32 hr (.inl rfl) hacc) hc))
            (broadcast (⟨2, ![a, 1]⟩ : Shape) (Scalar.ofBits (F := Ideal) .f32 0x2B8CBCCC#32))) hb))
        (broadcast (⟨2, ![a, 64]⟩ : Shape) (Scalar.ofBits (F := Ideal) .f32 0x3E000000#32))) hlt
      : FVec Ideal ⟨2, ![a, 64]⟩ .bf16) (ix2 p d)
      = Cert.AttnSpec.rowDir (fun d' => x (ix2 p d')) d * Cert.AttnSpec.eighth := by
  rw [truncf_apply, mulf_apply, dir_apply x hr hc hb hacc p d]
  rfl

/-- The logits of the tile before the mask's fill is read as −∞: where the mask bit holds, the entry `(l, s)` is the sum over
    the 64 coordinates of the query factor `(l, d)` times the key factor `(s, d)` (the keys are transposed into the
    product); elsewhere it is −∞. -/
theorem logit_apply {a : ℕ} (c : IVec ⟨2, ![a, 2048]⟩ 1) (qs : FVec Ideal ⟨2, ![a, 64]⟩ .bf16)
    (ks : FVec Ideal ⟨2, ![2048, 64]⟩ .bf16)
    (w : DotDims.WF ⟨2, ![a, 64]⟩ ⟨2, ![64, 2048]⟩ ⟨2, ![a, 2048]⟩ [1] [0] [0] [1] [] [])
    (ht : (⟨2, ![2048, 64]⟩ : Shape).Transposes [1, 0] ⟨2, ![64, 2048]⟩) (l : Fin a) (s : Fin 2048) :
    select c
        (matmul (⟨[1], [0], [0], [1], [], [], w⟩ : DotDims _ _ _) none qs (transpose ⟨2, ![64, 2048]⟩ [1, 0] ks ht)
          (constant (F := Ideal) ⟨2, ![a, 2048]⟩ .f32 0x00000000#32))
        (broadcast (⟨2, ![a, 2048]⟩ : Shape)
          (Named.named (F := Ideal) Cert.KernelIdeal.κ "neg_big" (φ := .f32) 0xFF333332#32)) (ix2 l s)
      = if c (ix2 l s) = 1#1 then ∑ d : Fin 64, qs (ix2 l d) * ks (ix2 s d) else (⊥ : EReal) := by
  rw [select_apply, broadcast_apply, neg_big_eq,
    Cert.LibMatmulIx.matmul_zero_apply w none qs (transpose ⟨2, ![64, 2048]⟩ [1, 0] ks ht) l s]
  show (if c (ix2 l s) = 1#1 then _ else _) = _
  refine if_congr Iff.rfl (Finset.sum_congr rfl fun d _ => ?_) rfl
  rw [transpose_ix2_apply ks ht d s]

/-- The weights of the tile: the entry `(l, s)` is the weight of key `s` in query row `l`'s row of logits — the sum over the
    64 coordinates of the query row's direction over 8 times the stored key factor where the mask's word is not zero, −∞
    elsewhere — in the arrangement that multiplies each mass by the reciprocal of the total. -/
theorem pay5_apply (x0 : Vec Ideal S1x512x64 .f32) (x3 : Vec Ideal S1x512x2048 .i32) (xs0 : Vec Ideal S2048x64 .bf16)
    (l : Fin 512) (s : Fin 2048) :
    k0_pay5 (F := Ideal) x0 x3 xs0 (ix2 l s)
      = Cert.AttnSpec.rowWeightK (fun s' => if Scalar.cmpi .ne (x3 (ix3 (0 : Fin 1) l s')) 0#32 = 1#1
          then ∑ d : Fin 64, (Cert.AttnSpec.rowDir (fun d' => x0 (ix3 (0 : Fin 1) l d')) d * Cert.AttnSpec.eighth) * xs0 (ix2 s' d)
          else ⊥) s := by
  unfold k0_pay5
  refine (weightK_apply _ reduces_S512x2048_S512 shapeCasts_S512_S512x1 broadcasts_S512x1_S512x2048 rfl rfl l s).trans ?_
  refine congrArg (fun e => Cert.AttnSpec.rowWeightK e s) (funext fun s' => ?_)
  refine (logit_apply _ _ xs0 dot_S512x64_S64x2048_S512x2048_1_0_0_1_n_n_wf transposes_S2048x64_p1_0_S64x2048 l s').trans ?_
  refine if_congr (Iff.of_eq (congrArg (fun b => b = 1#1) ?_)) (Finset.sum_congr rfl fun d _ => congrArg (fun t => t * xs0 (ix2 s' d)) ?_) rfl
  · exact congrArg (fun v => IntOp.cmpi .ne v 0#32) (shapeCast_1ab_ab_apply x3 shapeCasts_S1x512x2048_S512x2048 l s')
  · refine (scaledDir_apply (shapeCast S512x64 x0 shapeCasts_S1x512x64_S512x64) reduces_S512x64_S512 shapeCasts_S512_S512x1
      broadcasts_S512x1_S512x64 rfl bitsLt_bf16_f32 l d).trans ?_
    exact congrArg (fun r => Cert.AttnSpec.rowDir r d * Cert.AttnSpec.eighth)
      (funext fun d' => shapeCast_1ab_ab_apply x0 shapeCasts_S1x512x64_S512x64 l d')

end Cert.KerPayload

end
-- ==== Proof.KerPoint.lean ====
/-
  What each grid point of the attention kernel leaves in its two output tiles, as the specification at an index.

  The grid has 32 points; point t works on batch t / 4 and on the 512 query rows from t % 4 · 512 on. Its input blocks
  are read where their rectangles say: the query and mask blocks are those rows of the batch, the key and value blocks the
  whole batch; the mask reaches the kernel with each bit widened to a word, and comparing that word with zero gives the
  bit back. The first point of a batch fills two caches — the directions of the batch's key rows, and its value rows — and
  the other three points of the batch find them unchanged (an induction along the grid). So at every point the weights
  tile holds, at (0, l, s), the specification's weight of key s for query row t % 4 · 512 + l of batch t / 4, and the
  output tile at (0, l, d) that row's weights against the value rows, in the arrangement that scales the query's
  direction by 1/8 before the sum and multiplies each mass by the reciprocal of the total.
-/
import proofs.«100238_j82712480186623_2_alg».proof.Proof.KerPieces
import proofs.«100238_j82712480186623_2_alg».proof.Proof.Gen.KernelIdeal.Value
import proofs.«100238_j82712480186623_2_alg».proof.Proof.AttnSpec
import proofs.«100238_j82712480186623_2_alg».proof.Proof.KerPayload
import Idealize.ShloMosaic.Lib.StableHlo.Run

set_option maxRecDepth 16384

noncomputable section

open scoped BigOperators

namespace Cert.KerPoint

open Idealize.ShloMosaic Idealize.ShloMosaic.TcCoe Idealize.ShloMosaic.ValueIdx
open Idealize.SL.Sem
open Cert.KernelIdeal Cert.KernelIdeal.Gen

/-! ## The input blocks of a point, read where their rectangles say -/

section Blocks
variable {F : FTy → Type} [FloatOps F] [Named F]
variable (m : (ℓ : Loc nD τ sig) → Buf (Elt F) ℓ)

/-- Where each input window's block sits at a point: batch t / 4 on the first axis; the query-tiled windows (the
    queries and the mask) at tile t % 4 on the second; the keys' and the values' whole batch. -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0) :=
  (by decide +kernel : ∀ t : Fin grid0.N, _)

/-- The query block at a point: rows t % 4 · 512 … of batch t / 4. -/
theorem iblk0_apply (c : Dev nD) (t : Fin cfg0.N) (l : Fin 512) (d : Fin 64)
    (h0 : t.val / 4 < 8) (h1 : t.val % 4 * 512 + l.val < 2048) :
    iblk m c 0 t (ix3 (0 : Fin 1) l d)
      = m ((c.tc : Thread nD τ).loc main_arg0) (ix3 (⟨t.val / 4, h0⟩ : Fin 8) (⟨t.val % 4 * 512 + l.val, h1⟩ : Fin 2048) d) := by
  refine Eq.trans ?_ (congrFun (V_main_arg0 m c) _)
  show V m c main_arg0 (((cfg0.win 0).blk t).view.emb (ix3 (0 : Fin 1) l d)) = V m c main_arg0 _
  obtain ⟨⟨e0, e1, e2⟩, -⟩ := idx_facts t
  refine congrArg (V m c main_arg0) ?_
  funext a; apply Fin.ext
  match a with
  | ⟨0, _⟩ => show win0_0.index t (0 : Fin 3) * 1 + 1 * 0 = t.val / 4; omega
  | ⟨1, _⟩ => show win0_0.index t (1 : Fin 3) * 512 + 1 * l.val = t.val % 4 * 512 + l.val; omega
  | ⟨2, _⟩ => show win0_0.index t (2 : Fin 3) * 64 + 1 * d.val = d.val; omega

/-- The key block at a point: all of batch t / 4. -/
theorem iblk1_apply (c : Dev nD) (t : Fin cfg0.N) (s : Fin 2048) (d : Fin 64) (h0 : t.val / 4 < 8) :
    iblk m c 1 t (ix3 (0 : Fin 1) s d)
      = m ((c.tc : Thread nD τ).loc main_arg1) (ix3 (⟨t.val / 4, h0⟩ : Fin 8) s d) := by
  refine Eq.trans ?_ (congrFun (V_main_arg1 m c) _)
  show V m c main_arg1 (((cfg0.win 1).blk t).view.emb (ix3 (0 : Fin 1) s d)) = V m c main_arg1 _
  obtain ⟨-, ⟨e0, e1, e2⟩, -⟩ := idx_facts t
  refine congrArg (V m c main_arg1) ?_
  funext a; apply Fin.ext
  match a with
  | ⟨0, _⟩ => show win0_1.index t (0 : Fin 3) * 1 + 1 * 0 = t.val / 4; omega
  | ⟨1, _⟩ => show win0_1.index t (1 : Fin 3) * 2048 + 1 * s.val = s.val; omega
  | ⟨2, _⟩ => show win0_1.index t (2 : Fin 3) * 64 + 1 * d.val = d.val; omega

/-- The value block at a point: all of batch t / 4. -/
theorem iblk2_apply (c : Dev nD) (t : Fin cfg0.N) (s : Fin 2048) (d : Fin 64) (h0 : t.val / 4 < 8) :
    iblk m c 2 t (ix3 (0 : Fin 1) s d)
      = m ((c.tc : Thread nD τ).loc main_arg2) (ix3 (⟨t.val / 4, h0⟩ : Fin 8) s d) := by
  refine Eq.trans ?_ (congrFun (V_main_arg2 m c) _)
  show V m c main_arg2 (((cfg0.win 2).blk t).view.emb (ix3 (0 : Fin 1) s d)) = V m c main_arg2 _
  obtain ⟨-, -, ⟨e0, e1, e2⟩, -⟩ := idx_facts t
  refine congrArg (V m c main_arg2) ?_
  funext a; apply Fin.ext
  match a with
  | ⟨0, _⟩ => show win0_2.index t (0 : Fin 3) * 1 + 1 * 0 = t.val / 4; omega
  | ⟨1, _⟩ => show win0_2.index t (1 : Fin 3) * 2048 + 1 * s.val = s.val; omega
  | ⟨2, _⟩ => show win0_2.index t (2 : Fin 3) * 64 + 1 * d.val = d.val; omega

/-- The mask as the kernel's fourth window finds it: each bit widened to a 32-bit word by the one host operation
    before the call. -/
theorem V_mask (c : Dev nD) :
    (V m c main_v0 : S8x2048x2048.Idx → BitVec 32) = extui 32 (m ((c.tc : Thread nD τ).loc main_arg3)) natLt_1_32 := by
  dsimp only [Gen.V, Gen.hostOps0]; after_results

/-- The mask block at a point: rows t % 4 · 512 … of batch t / 4, each bit as a word. -/
theorem iblk3_apply (c : Dev nD) (t : Fin cfg0.N) (l : Fin 512) (s : Fin 2048)
    (h0 : t.val / 4 < 8) (h1 : t.val % 4 * 512 + l.val < 2048) :
    iblk m c 3 t (ix3 (0 : Fin 1) l s)
      = (m ((c.tc : Thread nD τ).loc main_arg3) (ix3 (⟨t.val / 4, h0⟩ : Fin 8) (⟨t.val % 4 * 512 + l.val, h1⟩ : Fin 2048) s)).setWidth 32 := by
  refine Eq.trans ?_ (congrFun (V_mask m c) _)
  show V m c main_v0 (((cfg0.win 3).blk t).view.emb (ix3 (0 : Fin 1) l s)) = V m c main_v0 _
  obtain ⟨-, -, -, ⟨e0, e1, e2⟩⟩ := idx_facts t
  refine congrArg (V m c main_v0) ?_
  funext a; apply Fin.ext
  match a with
  | ⟨0, _⟩ => show win0_3.index t (0 : Fin 3) * 1 + 1 * 0 = t.val / 4; omega
  | ⟨1, _⟩ => show win0_3.index t (1 : Fin 3) * 512 + 1 * l.val = t.val % 4 * 512 + l.val; omega
  | ⟨2, _⟩ => show win0_3.index t (2 : Fin 3) * 2048 + 1 * s.val = s.val; omega

end Blocks

/-- A mask bit widened to a word and compared with zero is the bit again. -/
theorem mask_word (b : BitVec 1) : Scalar.cmpi .ne (b.setWidth 32) 0#32 = b := by
  rcases BitVec.eq_zero_or_eq_one b with h | h <;> subst h <;> decide

/-! ## One point's arithmetic over blocks that are known entry by entry -/

section Values
open Cert.AttnSpec

variable (Q K V : Arr) (M : Msk) (n : Fin 8)

/-- The directions of a key block that is batch `n` of the keys. -/
theorem dirs_of_keys (x1 : Vec Ideal S1x2048x64 .f32)
    (hk : ∀ (s : Fin 2048) (d : Fin 64), x1 (ix3 (0 : Fin 1) s d) = K (ix3 n s d)) (s : Fin 2048) (d : Fin 64) :
    k0_pay3 (F := Ideal) x1 (ix2 s d) = rowDir (row K n s) d :=
  (Cert.KerPayload.pay3_apply x1 s d).trans (congrArg (fun r => rowDir r d) (funext fun d' => hk s d'))

/-- The stored rows of a value block that is batch `n` of the values. -/
theorem vals_of_values (x2 : Vec Ideal S1x2048x64 .f32)
    (hv : ∀ (s : Fin 2048) (d : Fin 64), x2 (ix3 (0 : Fin 1) s d) = V (ix3 n s d)) (s : Fin 2048) (d : Fin 64) :
    k0_pay4 (F := Ideal) x2 (ix2 s d) = V (ix3 n s d) :=
  (Cert.KerPayload.pay4_apply x2 s d).trans (hv s d)

/-- The weights of query row `r` of batch `n`, from a query block whose row `l` is that row, a mask block whose row `l`
    is that row's mask (each bit as a word), and a cache holding the directions of batch `n`'s key rows. -/
theorem weights_row (r : Fin 2048) (l : Fin 512) (x0 : Vec Ideal S1x512x64 .f32) (x3 : Vec Ideal S1x512x2048 .i32)
    (xs0 : Vec Ideal S2048x64 .bf16)
    (hq : ∀ d : Fin 64, x0 (ix3 (0 : Fin 1) l d) = Q (ix3 n r d))
    (hm : ∀ s : Fin 2048, x3 (ix3 (0 : Fin 1) l s) = (M (ix3 n r s)).setWidth 32)
    (hx : ∀ (s : Fin 2048) (d : Fin 64), xs0 (ix2 s d) = rowDir (row K n s) d) (s : Fin 2048) :
    k0_pay5 (F := Ideal) x0 x3 xs0 (ix2 l s) = rowWeightK (logitK Q K M n r) s := by
  refine (Cert.KerPayload.pay5_apply x0 x3 xs0 l s).trans ?_
  refine congrArg (fun e => rowWeightK e s) (funext fun s' => ?_)
  show _ = (if M (ix3 n r s') = 1#1 then ∑ d : Fin 64, (rowDir (row Q n r) d * eighth) * rowDir (row K n s') d else ⊥)
  rw [hm s', mask_word]
  refine if_congr Iff.rfl (Finset.sum_congr rfl fun d _ => ?_) rfl
  rw [hx s' d]
  exact congrArg (fun q => (rowDir q d * eighth) * rowDir (row K n s') d) (funext fun d' => hq d')

/-- The weights tile at `(0, l, s)`. -/
theorem weights_tile (r : Fin 2048) (l : Fin 512) (x0 : Vec Ideal S1x512x64 .f32) (x3 : Vec Ideal S1x512x2048 .i32)
    (xs0 : Vec Ideal S2048x64 .bf16)
    (hq : ∀ d : Fin 64, x0 (ix3 (0 : Fin 1) l d) = Q (ix3 n r d))
    (hm : ∀ s : Fin 2048, x3 (ix3 (0 : Fin 1) l s) = (M (ix3 n r s)).setWidth 32)
    (hx : ∀ (s : Fin 2048) (d : Fin 64), xs0 (ix2 s d) = rowDir (row K n s) d) (s : Fin 2048) :
    k0_pay1 (F := Ideal) (k0_pay5 (F := Ideal) x0 x3 xs0) (ix3 (0 : Fin 1) l s) = weightsK Q K M (ix3 n r s) :=
  (Cert.KerPayload.pay1_apply _ l s).trans (weights_row Q K M n r l x0 x3 xs0 hq hm hx s)

/-- The output tile at `(0, l, d)`: the weights of the row against a second cache holding batch `n`'s value rows. -/
theorem outputs_tile (r : Fin 2048) (l : Fin 512) (x0 : Vec Ideal S1x512x64 .f32) (x3 : Vec Ideal S1x512x2048 .i32)
    (xs0 xs1 : Vec Ideal S2048x64 .bf16)
    (hq : ∀ d : Fin 64, x0 (ix3 (0 : Fin 1) l d) = Q (ix3 n r d))
    (hm : ∀ s : Fin 2048, x3 (ix3 (0 : Fin 1) l s) = (M (ix3 n r s)).setWidth 32)
    (hx : ∀ (s : Fin 2048) (d : Fin 64), xs0 (ix2 s d) = rowDir (row K n s) d)
    (hv : ∀ (s : Fin 2048) (d : Fin 64), xs1 (ix2 s d) = V (ix3 n s d)) (d : Fin 64) :
    k0_pay2 (F := Ideal) (k0_pay5 (F := Ideal) x0 x3 xs0) xs1 (ix3 (0 : Fin 1) l d) = outputsK Q K V M (ix3 n r d) := by
  refine (Cert.KerPayload.pay2_apply _ xs1 l d).trans ?_
  show _ = ∑ s : Fin 2048, rowWeightK (logitK Q K M n r) s * V (ix3 n s d)
  exact Finset.sum_congr rfl fun s _ => by rw [weights_row Q K M n r l x0 x3 xs0 hq hm hx s, hv s d]

end Values

/-! ## The points of the grid -/

section Points
open Cert.AttnSpec

variable (m : (ℓ : Loc nD τ sig) → Buf (Elt Ideal) ℓ) (c : Dev nD)

/-- Point `t` works on batch `t / 4` -/
theorem batch_lt (t : Fin cfg0.N) : t.val / 4 < 8 := by
  have h1 := t.isLt; have h2 : cfg0.N = 32 := N_0; omega

/-- and on the query rows `t % 4 · 512 …`. -/
theorem row_lt (t : Fin cfg0.N) (l : Fin 512) : t.val % 4 * 512 + l.val < 2048 := by
  have := l.isLt; omega

/-- At a point that refills the caches they are left holding the directions of its batch's key rows and its batch's
    value rows. -/
theorem caches_refilled (t : Fin cfg0.N) (h0 : t.val % 4 = 0) (hb : t.val / 4 < 8) (s : Fin 2048) (d : Fin 64) :
    (outsAt0 (F := Ideal) m c t.val t.isLt).2.2.1 (ix2 s d)
        = rowDir (row (m ((c.tc : Thread nD τ).loc main_arg1)) (⟨t.val / 4, hb⟩ : Fin 8) s) d
      ∧ (outsAt0 (F := Ideal) m c t.val t.isLt).2.2.2 (ix2 s d)
        = m ((c.tc : Thread nD τ).loc main_arg2) (ix3 (⟨t.val / 4, hb⟩ : Fin 8) s d) := by
  rw [outsAt0_A m c t h0]
  dsimp only
  constructor
  · rw [Cert.KerPieces.sout_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)]
    exact dirs_of_keys (m ((c.tc : Thread nD τ).loc main_arg1)) ⟨t.val / 4, hb⟩ (iblk m c 1 t)
      (fun s d => iblk1_apply m c t s d hb) s d
  · rw [Cert.KerPieces.sout_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)]
    exact vals_of_values (m ((c.tc : Thread nD τ).loc main_arg2)) ⟨t.val / 4, hb⟩ (iblk m c 2 t)
      (fun s d => iblk2_apply m c t s d hb) s d

/-- THE CACHES after any point hold the directions of the key rows and the value rows of the point's batch: refilled
    at the batch's first point, carried unchanged through its other three. -/
theorem caches : ∀ (n : ℕ) (h : n < cfg0.N) (hb : n / 4 < 8) (s : Fin 2048) (d : Fin 64),
    (outsAt0 (F := Ideal) m c n h).2.2.1 (ix2 s d)
        = rowDir (row (m ((c.tc : Thread nD τ).loc main_arg1)) (⟨n / 4, hb⟩ : Fin 8) s) d
      ∧ (outsAt0 (F := Ideal) m c n h).2.2.2 (ix2 s d)
        = m ((c.tc : Thread nD τ).loc main_arg2) (ix3 (⟨n / 4, hb⟩ : Fin 8) s d)
  | 0, h, hb, s, d => caches_refilled m c ⟨0, h⟩ rfl hb s d
  | k + 1, h, hb, s, d => by
    by_cases h0 : (k + 1) % 4 = 0
    · exact caches_refilled m c ⟨k + 1, h⟩ h0 hb s d
    · rw [outsAt0_B m c ⟨k + 1, h⟩ h0]
      dsimp only [sout0_B_0, sout0_B_1]
      have e : (⟨(k + 1) / 4, hb⟩ : Fin 8) = ⟨k / 4, by omega⟩ := Fin.ext (by show (k + 1) / 4 = k / 4; omega)
      rw [e]
      exact caches k (Nat.lt_of_succ_lt h) (by omega) s d

/-- THE WEIGHTS a point leaves in its tile are the specification's weights of its batch and rows. -/
theorem point_weights (t : Fin cfg0.N) (l : Fin 512) (s : Fin 2048) :
    (outsAt0 (F := Ideal) m c t.val t.isLt).2.1 (ix3 (0 : Fin 1) l s)
      = weightsK (m ((c.tc : Thread nD τ).loc main_arg0)) (m ((c.tc : Thread nD τ).loc main_arg1))
          (m ((c.tc : Thread nD τ).loc main_arg3))
          (ix3 (⟨t.val / 4, batch_lt t⟩ : Fin 8) (⟨t.val % 4 * 512 + l.val, row_lt t l⟩ : Fin 2048) s) := by
  have hb := batch_lt t
  have h1 := row_lt t l
  by_cases h0 : t.val % 4 = 0
  · rw [outsAt0_A m c t h0]
    dsimp only
    rw [Cert.KerPieces.out_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)]
    exact weights_tile (m ((c.tc : Thread nD τ).loc main_arg0)) (m ((c.tc : Thread nD τ).loc main_arg1))
      (m ((c.tc : Thread nD τ).loc main_arg3)) ⟨t.val / 4, hb⟩ ⟨t.val % 4 * 512 + l.val, h1⟩ l
      (iblk m c 0 t) (iblk m c 3 t) (k0_pay3 (F := Ideal) (iblk m c 1 t))
      (fun d => iblk0_apply m c t l d hb h1) (fun s => iblk3_apply m c t l s hb h1)
      (fun s d => dirs_of_keys (m ((c.tc : Thread nD τ).loc main_arg1)) ⟨t.val / 4, hb⟩ (iblk m c 1 t)
        (fun s d => iblk1_apply m c t s d hb) s d) s
  · rw [outsAt0_B m c t h0]
    dsimp only
    have hN : cfg0.N = 32 := N_0
    have ht := t.isLt
    have hp : t.val - 1 < cfg0.N := Nat.lt_of_le_of_lt (Nat.sub_le _ _) t.isLt
    have hbp : (t.val - 1) / 4 < 8 := by omega
    have e : (⟨(t.val - 1) / 4, hbp⟩ : Fin 8) = ⟨t.val / 4, hb⟩ := Fin.ext (by show (t.val - 1) / 4 = t.val / 4; omega)
    rw [Cert.KerPieces.out_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 (F := Ideal) m c (t.val - 1) hp).2.2.1 (outsAt0 (F := Ideal) m c (t.val - 1) hp).2.2.2]
    exact weights_tile (m ((c.tc : Thread nD τ).loc main_arg0)) (m ((c.tc : Thread nD τ).loc main_arg1))
      (m ((c.tc : Thread nD τ).loc main_arg3)) ⟨t.val / 4, hb⟩ ⟨t.val % 4 * 512 + l.val, h1⟩ l
      (iblk m c 0 t) (iblk m c 3 t) (outsAt0 (F := Ideal) m c (t.val - 1) hp).2.2.1
      (fun d => iblk0_apply m c t l d hb h1) (fun s => iblk3_apply m c t l s hb h1)
      (fun s d => e ▸ (caches m c (t.val - 1) hp hbp s d).1) s

/-- THE OUTPUT a point leaves in its tile is the specification's output of its batch and rows. -/
theorem point_outputs (t : Fin cfg0.N) (l : Fin 512) (d : Fin 64) :
    (outsAt0 (F := Ideal) m c t.val t.isLt).1 (ix3 (0 : Fin 1) l d)
      = outputsK (m ((c.tc : Thread nD τ).loc main_arg0)) (m ((c.tc : Thread nD τ).loc main_arg1))
          (m ((c.tc : Thread nD τ).loc main_arg2)) (m ((c.tc : Thread nD τ).loc main_arg3))
          (ix3 (⟨t.val / 4, batch_lt t⟩ : Fin 8) (⟨t.val % 4 * 512 + l.val, row_lt t l⟩ : Fin 2048) d) := by
  have hb := batch_lt t
  have h1 := row_lt t l
  by_cases h0 : t.val % 4 = 0
  · rw [outsAt0_A m c t h0]
    dsimp only
    rw [Cert.KerPieces.out_A_4_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (iblk m c 0 t) (iblk m c 1 t) (iblk m c 2 t) (iblk m c 3 t)]
    exact outputs_tile (m ((c.tc : Thread nD τ).loc main_arg0)) (m ((c.tc : Thread nD τ).loc main_arg1))
      (m ((c.tc : Thread nD τ).loc main_arg2)) (m ((c.tc : Thread nD τ).loc main_arg3))
      ⟨t.val / 4, hb⟩ ⟨t.val % 4 * 512 + l.val, h1⟩ l
      (iblk m c 0 t) (iblk m c 3 t) (k0_pay3 (F := Ideal) (iblk m c 1 t)) (k0_pay4 (F := Ideal) (iblk m c 2 t))
      (fun d => iblk0_apply m c t l d hb h1) (fun s => iblk3_apply m c t l s hb h1)
      (fun s d => dirs_of_keys (m ((c.tc : Thread nD τ).loc main_arg1)) ⟨t.val / 4, hb⟩ (iblk m c 1 t)
        (fun s d => iblk1_apply m c t s d hb) s d)
      (fun s d => vals_of_values (m ((c.tc : Thread nD τ).loc main_arg2)) ⟨t.val / 4, hb⟩ (iblk m c 2 t)
        (fun s d => iblk2_apply m c t s d hb) s d) d
  · rw [outsAt0_B m c t h0]
    dsimp only
    have hN : cfg0.N = 32 := N_0
    have ht := t.isLt
    have hp : t.val - 1 < cfg0.N := Nat.lt_of_le_of_lt (Nat.sub_le _ _) t.isLt
    have hbp : (t.val - 1) / 4 < 8 := by omega
    have e : (⟨(t.val - 1) / 4, hbp⟩ : Fin 8) = ⟨t.val / 4, hb⟩ := Fin.ext (by show (t.val - 1) / 4 = t.val / 4; omega)
    rw [Cert.KerPieces.out_B_4_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (iblk m c 0 t) (iblk m c 1 t) (iblk m c 2 t) (iblk m c 3 t) (outsAt0 (F := Ideal) m c (t.val - 1) hp).2.2.1 (outsAt0 (F := Ideal) m c (t.val - 1) hp).2.2.2]
    exact outputs_tile (m ((c.tc : Thread nD τ).loc main_arg0)) (m ((c.tc : Thread nD τ).loc main_arg1))
      (m ((c.tc : Thread nD τ).loc main_arg2)) (m ((c.tc : Thread nD τ).loc main_arg3))
      ⟨t.val / 4, hb⟩ ⟨t.val % 4 * 512 + l.val, h1⟩ l
      (iblk m c 0 t) (iblk m c 3 t) (outsAt0 (F := Ideal) m c (t.val - 1) hp).2.2.1 (outsAt0 (F := Ideal) m c (t.val - 1) hp).2.2.2
      (fun d => iblk0_apply m c t l d hb h1) (fun s => iblk3_apply m c t l s hb h1)
      (fun s d => e ▸ (caches m c (t.val - 1) hp hbp s d).1)
      (fun s d => e ▸ (caches m c (t.val - 1) hp hbp s d).2) d

end Points

end Cert.KerPoint

end
-- ==== Proof.lean ====
/-
  Masked cosine attention: the kernel against its reference, over the extended reals.

  For a batch n, a query row l and a key row s, with x̂ = x / max(√(Σ_d x_d²), ε) the direction of a row:
    e(s) = (Σ_d q̂(n,l)_d · k̂(n,s)_d) / 8 where the mask holds, −∞ elsewhere;
    w(s) = exp(e(s) − max_s e) / Σ_s exp(e(s) − max_s e);   o(d) = Σ_s w(s) · v(n,s,d).
  The reference computes exactly this (Proof/RefValue.lean). The kernel works tile by tile over a grid of 8 batches by
  4 tiles of 512 query rows, keeps the keys' directions and the values in two buffers it refills at the first tile of a
  batch, applies the factor 1/8 to q̂ before the sum over d, fills masked logits with a finite word that stands for −∞,
  and multiplies each mass by the reciprocal of the row's total (Proof/KerPayload.lean, Proof/KerPieces.lean,
  Proof/KerPoint.lean; the tiles fill the arrays: Proof/KerArrays.lean).
  The two arrangements give the same numbers when the queries and keys are real and every mask row has an unmasked
  key (Proof/AttnAlgebra.lean): real directions let the factor 1/8 cross the sum, and an unmasked key makes the row's
  total a nonzero number, so that multiplying by its reciprocal is dividing by it. On a row with no unmasked key the
  total is 0 and the two differ (0 · (1/0) = 0 against 0/0), which is why the precondition asks for one; it is read
  back from its printed form in Proof/PreDecode.lean. The claims are assembled in Proof/AttnClaims.lean.
-/
import proofs.«100238_j82712480186623_2_alg».proof.Defs
import proofs.«100238_j82712480186623_2_alg».proof.Proof.AttnClaims
import proofs.«100238_j82712480186623_2_alg».proof.Proof.KerPoint
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    AttnClaims.frame_k, AttnClaims.frame_ki, AttnClaims.frame_ri, AttnClaims.preserves,
    AttnClaims.algebraic_of_points (fun m c t l s => Cert.KerPoint.point_weights m c t l s)
      (fun m c t l d => Cert.KerPoint.point_outputs m c t l d)⟩

end Cert.Proof

end
